-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S1x128 : Shape := ⟨2, ![1, 128]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S1x10 : Shape := ⟨2, ![1, 10]⟩
abbrev S10 : Shape := ⟨1, ![10]⟩
abbrev S_ : Shape := ⟨0, ![]⟩

abbrev nBuf : Space → Nat
  | .hbm => 34
  | .vmem => 10
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S262144x128, .f32⟩
  | .hbm, ⟨3, _⟩ => ⟨S262144x128, .i32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x10, .f32⟩
  | .hbm, ⟨8, _⟩ => ⟨S10, .f32⟩
  | .hbm, ⟨9, _⟩ => ⟨S1x10, .f32⟩
  | .hbm, ⟨10, _⟩ => ⟨S10, .f32⟩
  | .hbm, ⟨11, _⟩ => ⟨S1x10, .f32⟩
  | .hbm, ⟨12, _⟩ => ⟨S10, .f32⟩
  | .hbm, ⟨13, _⟩ => ⟨S_, .f32⟩
  | .hbm, ⟨14, _⟩ => ⟨S10, .f32⟩
  | .hbm, ⟨15, _⟩ => ⟨S10, .f32⟩
  | .hbm, ⟨16, _⟩ => ⟨S10, .f32⟩
  | .hbm, ⟨17, _⟩ => ⟨S10, .f32⟩
  | .hbm, ⟨18, _⟩ => ⟨S10, .f32⟩
  | .hbm, ⟨19, _⟩ => ⟨S10, .f32⟩
  | .hbm, ⟨20, _⟩ => ⟨S_, .f32⟩
  | .hbm, ⟨21, _⟩ => ⟨S10, .f32⟩
  | .hbm, ⟨22, _⟩ => ⟨S10, .f32⟩
  | .hbm, ⟨23, _⟩ => ⟨S_, .f32⟩
  | .hbm, ⟨24, _⟩ => ⟨S10, .f32⟩
  | .hbm, ⟨25, _⟩ => ⟨S10, .i1⟩
  | .hbm, ⟨26, _⟩ => ⟨S10, .f32⟩
  | .hbm, ⟨27, _⟩ => ⟨S_, .f32⟩
  | .hbm, ⟨28, _⟩ => ⟨S_, .f32⟩
  | .hbm, ⟨29, _⟩ => ⟨S10, .f32⟩
  | .hbm, ⟨30, _⟩ => ⟨S10, .f32⟩
  | .hbm, ⟨31, _⟩ => ⟨S_, .f32⟩
  | .hbm, ⟨32, _⟩ => ⟨S_, .f32⟩
  | .hbm, ⟨33, _⟩ => ⟨S1, .f32⟩
  | .local _ .vmem, ⟨0, _⟩ => ⟨S4096x128, .f32⟩
  | .local _ .vmem, ⟨1, _⟩ => ⟨S4096x128, .f32⟩
  | .local _ .vmem, ⟨2, _⟩ => ⟨S4096x128, .i32⟩
  | .local _ .vmem, ⟨3, _⟩ => ⟨S4096x128, .i32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v466 : BitVec 1 := Scalar.cmpi .eq arg0 c63_i32
  let v467 : BitVec 32 := Scalar.extui v466
  let c0_i32_200 : BitVec 32 := 0#32
  let v468 : BitVec 1 := Scalar.cmpi .ne v467 c0_i32_200
  v468

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S33554432_S262144x128 : S33554432.ShapeCasts S262144x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  natLt_1_32 : 1 < 32
  iota_S1x128_d1_w32 : S1x128.Iotas .tc 32 [1]
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  broadcasts_S1x1_S1x128 : S1x1.Broadcasts S1x128
  slices_S1x128_S1x10_0_0 : S1x128.Slices ![0, 0] S1x10
  shapeCasts_S1x10_S10 : S1x10.ShapeCasts S10
  bcast_S_S10 : S_.BroadcastsInDim S10 (![] : Fin 0 → Fin S10.rank)
  reducesTo_S10_S_d0 : S10.ReducesTo [0] S_
  h_S_ : 0 < S_.numel
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .i32 = 32 ∨ (Rect.block (s := S262144x128) S4096x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩
abbrev S10 : Shape := ⟨1, ![10]⟩
abbrev S33554432x1 : Shape := ⟨2, ![33554432, 1]⟩
abbrev S1 : Shape := ⟨1, ![1]⟩

abbrev nBuf : Space → Nat
  | .hbm => 62
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S33554432, .f32⟩
  | .hbm, ⟨3, _⟩ => ⟨S_, .f32⟩
  | .hbm, ⟨4, _⟩ => ⟨S33554432, .f32⟩
  | .hbm, ⟨5, _⟩ => ⟨S33554432, .f32⟩
  | .hbm, ⟨6, _⟩ => ⟨S33554432, .f32⟩
  | .hbm, ⟨7, _⟩ => ⟨S33554432, .i32⟩
  | .hbm, ⟨8, _⟩ => ⟨S_, .i32⟩
  | .hbm, ⟨9, _⟩ => ⟨S33554432, .i32⟩
  | .hbm, ⟨10, _⟩ => ⟨S33554432, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S33554432, .i32⟩
  | .hbm, ⟨15, _⟩ => ⟨S33554432, .i32⟩
  | .hbm, ⟨16, _⟩ => ⟨S_, .i32⟩
  | .hbm, ⟨17, _⟩ => ⟨S33554432, .i32⟩
  | .hbm, ⟨18, _⟩ => ⟨S33554432, .i32⟩
  | .hbm, ⟨19, _⟩ => ⟨S_, .f32⟩
  | .hbm, ⟨20, _⟩ => ⟨S33554432, .f32⟩
  | .hbm, ⟨21, _⟩ => ⟨S33554432, .i1⟩
  | .hbm, ⟨22, _⟩ => ⟨S_, .f32⟩
  | .hbm, ⟨23, _⟩ => ⟨S33554432, .f32⟩
  | .hbm, ⟨24, _⟩ => ⟨S33554432, .i1⟩
  | .hbm, ⟨25, _⟩ => ⟨S33554432, .i1⟩
  | .hbm, ⟨26, _⟩ => ⟨S33554432, .f32⟩
  | .hbm, ⟨27, _⟩ => ⟨S_, .f32⟩
  | .hbm, ⟨28, _⟩ => ⟨S10, .f32⟩
  | .hbm, ⟨29, _⟩ => ⟨S33554432x1, .i32⟩
  | .hbm, ⟨30, _⟩ => ⟨S10, .f32⟩
  | .hbm, ⟨31, _⟩ => ⟨S33554432, .f32⟩
  | .hbm, ⟨32, _⟩ => ⟨S_, .f32⟩
  | .hbm, ⟨33, _⟩ => ⟨S10, .f32⟩
  | .hbm, ⟨34, _⟩ => ⟨S33554432x1, .i32⟩
  | .hbm, ⟨35, _⟩ => ⟨S10, .f32⟩
  | .hbm, ⟨36, _⟩ => ⟨S33554432, .f32⟩
  | .hbm, ⟨37, _⟩ => ⟨S_, .f32⟩
  | .hbm, ⟨38, _⟩ => ⟨S10, .f32⟩
  | .hbm, ⟨39, _⟩ => ⟨S33554432x1, .i32⟩
  | .hbm, ⟨40, _⟩ => ⟨S10, .f32⟩
  | .hbm, ⟨41, _⟩ => ⟨S_, .f32⟩
  | .hbm, ⟨42, _⟩ => ⟨S10, .f32⟩
  | .hbm, ⟨43, _⟩ => ⟨S10, .f32⟩
  | .hbm, ⟨44, _⟩ => ⟨S10, .f32⟩
  | .hbm, ⟨45, _⟩ => ⟨S10, .f32⟩
  | .hbm, ⟨46, _⟩ => ⟨S10, .f32⟩
  | .hbm, ⟨47, _⟩ => ⟨S10, .f32⟩
  | .hbm, ⟨48, _⟩ => ⟨S_, .f32⟩
  | .hbm, ⟨49, _⟩ => ⟨S10, .f32⟩
  | .hbm, ⟨50, _⟩ => ⟨S10, .f32⟩
  | .hbm, ⟨51, _⟩ => ⟨S_, .f32⟩
  | .hbm, ⟨52, _⟩ => ⟨S10, .f32⟩
  | .hbm, ⟨53, _⟩ => ⟨S10, .i1⟩
  | .hbm, ⟨54, _⟩ => ⟨S10, .f32⟩
  | .hbm, ⟨55, _⟩ => ⟨S_, .f32⟩
  | .hbm, ⟨56, _⟩ => ⟨S_, .f32⟩
  | .hbm, ⟨57, _⟩ => ⟨S10, .f32⟩
  | .hbm, ⟨58, _⟩ => ⟨S10, .f32⟩
  | .hbm, ⟨59, _⟩ => ⟨S_, .f32⟩
  | .hbm, ⟨60, _⟩ => ⟨S_, .f32⟩
  | .hbm, ⟨61, _⟩ => ⟨S1, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_call1_v0 : Ref sig .tc := ⟨.hbm, 56, rfl⟩
abbrev main_call1_v1 : Ref sig .tc := ⟨.hbm, 57, rfl⟩
abbrev main_v36 : Ref sig .tc := ⟨.hbm, 58, rfl⟩
abbrev main_cst_11 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  bcast_S_S10 : S_.BroadcastsInDim S10 (![] : Fin 0 → Fin S10.rank)
  bcast_S33554432_S33554432x1_0 : S33554432.BroadcastsInDim S33554432x1 (![0] : Fin 1 → Fin S33554432x1.rank)
  reducesTo_S10_S_d0 : S10.ReducesTo [0] S_
  h_S_ : 0 < S_.numel
  shapeCasts_S_S1 : S_.ShapeCasts S1
  scatter_S10_S33554432x1_S33554432_n_0_0_1_wf : ScatterDims.WF S10 S33554432x1 S33554432 [] [0] [0] 1

variable [Facts₀]

def scatter_S10_S33554432x1_S33554432_n_0_0_1 : ScatterDims S10 S33554432x1 S33554432 where
  updateWindowDims := []
  insertedWindowDims := [0]
  scatterDimsToOperandDims := [0]
  indexVectorDim := 1
  wf := scatter_S10_S33554432x1_S33554432_n_0_0_1_wf

class Facts : Prop extends Facts₀ where

variable [Facts]
-- ==== Proof.Stores.lean ====
/-
  A buffer stored whole, several times over, and then loaded whole: the load reads what the last store wrote,
  whatever the earlier stores were.
-/
import Idealize.ShloMosaic.Lib.Pipeline.Value

namespace Cert.Hist

open Idealize.ShloMosaic

variable {Val : EltTy → Type} {S : Shape} {e : EltTy}

/-- The pieces are listed last store first. A load through the whole-shape rectangle of what a store through it,
    made after any other stores, left behind reads that store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

end Cert.Hist
-- ==== Proof.Chains.lean ====
/-
  One grid point's work on the three lane vectors the kernel carries: ten successive additions, one per bin, of the
  bin's lane indicator times the block's total for that bin — the count of valid samples, the sum of their confidences,
  the sum of their labels. Each is the nest of the body's payloads, innermost the first bin, over the block of
  confidences `x0`, the block of labels `x1` and the vector carried in, `acc`.
-/
import proofs.«179092_j17343077941754_2_alg».proof.Proof.Gen.KernelIdeal.Skeleton

noncomputable section

namespace Cert.Hist

open Idealize.ShloMosaic Cert.KernelIdeal Cert.KernelIdeal.Gen

variable {F : FTy → Type} [FloatOps F]

/-- The counts: `acc + Σ_b lane_b · (number of valid samples of the block in bin b)`, added bin by bin. -/
def cntStep (x0 : Vec F S4096x128 .f32) (acc : Vec F S1x128 .f32) : Vec F S1x128 .f32 :=
  k0_pay76 (iota Kind.tc S1x128 32 [1] iota_S1x128_d1_w32) (k0_pay73 (k0_pay6 x0) (k0_pay7 x0))
    (k0_pay69 (iota Kind.tc S1x128 32 [1] iota_S1x128_d1_w32) (k0_pay65 (k0_pay6 x0) (k0_pay7 x0))
      (k0_pay61 (k0_pay57 (k0_pay6 x0) (k0_pay7 x0)) (k0_pay60 (iota Kind.tc S1x128 32 [1] iota_S1x128_d1_w32))
        (k0_pay53
          (k0_pay52 (k0_pay6 x0) (k0_pay7 x0) (iota Kind.tc S1x128 32 [1] iota_S1x128_d1_w32)
            (k0_pay45 (k0_pay6 x0) (k0_pay7 x0) (iota Kind.tc S1x128 32 [1] iota_S1x128_d1_w32)
              (k0_pay37 (k0_pay6 x0) (k0_pay7 x0) (iota Kind.tc S1x128 32 [1] iota_S1x128_d1_w32)
                (k0_pay30 (k0_pay6 x0) (k0_pay7 x0) (iota Kind.tc S1x128 32 [1] iota_S1x128_d1_w32)
                  (k0_pay25 (iota Kind.tc S1x128 32 [1] iota_S1x128_d1_w32) (k0_pay23 (k0_pay6 x0) (k0_pay7 x0))
                    (k0_pay20 (iota Kind.tc S1x128 32 [1] iota_S1x128_d1_w32) (k0_pay17 (k0_pay6 x0) (k0_pay7 x0))
                      (k0_pay13 (iota Kind.tc S1x128 32 [1] iota_S1x128_d1_w32) (k0_pay9 x0) acc))))))))))

/-- The confidence sums: `acc + Σ_b lane_b · (sum of the confidences of the block's valid samples in bin b)`. -/
def confStep (x0 : Vec F S4096x128 .f32) (acc : Vec F S1x128 .f32) : Vec F S1x128 .f32 :=
  k0_pay77 (iota Kind.tc S1x128 32 [1] iota_S1x128_d1_w32) (k0_pay74 (k0_pay4 x0) (k0_pay6 x0) (k0_pay7 x0))
    (k0_pay70 (iota Kind.tc S1x128 32 [1] iota_S1x128_d1_w32) (k0_pay66 (k0_pay4 x0) (k0_pay6 x0) (k0_pay7 x0))
      (k0_pay62 (k0_pay58 (k0_pay4 x0) (k0_pay6 x0) (k0_pay7 x0)) (k0_pay60 (iota Kind.tc S1x128 32 [1] iota_S1x128_d1_w32))
        (k0_pay54 (k0_pay49 (k0_pay4 x0) (k0_pay6 x0) (k0_pay7 x0)) (k0_pay51 (iota Kind.tc S1x128 32 [1] iota_S1x128_d1_w32))
          (k0_pay46 (k0_pay42 (k0_pay4 x0) (k0_pay6 x0) (k0_pay7 x0)) (k0_pay44 (iota Kind.tc S1x128 32 [1] iota_S1x128_d1_w32))
            (k0_pay39
              (k0_pay38 (k0_pay4 x0) (k0_pay6 x0) (k0_pay7 x0) (iota Kind.tc S1x128 32 [1] iota_S1x128_d1_w32)
                (k0_pay31 (k0_pay4 x0) (k0_pay6 x0) (k0_pay7 x0) (iota Kind.tc S1x128 32 [1] iota_S1x128_d1_w32)
                  (k0_pay26 (k0_pay4 x0) (iota Kind.tc S1x128 32 [1] iota_S1x128_d1_w32) (k0_pay23 (k0_pay6 x0) (k0_pay7 x0))
                    (k0_pay21 (iota Kind.tc S1x128 32 [1] iota_S1x128_d1_w32) (k0_pay18 (k0_pay4 x0) (k0_pay6 x0) (k0_pay7 x0))
                      (k0_pay14 (iota Kind.tc S1x128 32 [1] iota_S1x128_d1_w32) (k0_pay10 x0) acc))))))))))

/-- The label sums: `acc + Σ_b lane_b · (sum of the labels of the block's valid samples in bin b)`. -/
def labStep (x0 : Vec F S4096x128 .f32) (x1 : Vec F S4096x128 .i32) (acc : Vec F S1x128 .f32) : Vec F S1x128 .f32 :=
  k0_pay78 (k0_pay5 x1) (iota Kind.tc S1x128 32 [1] iota_S1x128_d1_w32) (k0_pay72 (k0_pay6 x0) (k0_pay7 x0))
    (k0_pay71 (iota Kind.tc S1x128 32 [1] iota_S1x128_d1_w32) (k0_pay67 (k0_pay5 x1) (k0_pay6 x0) (k0_pay7 x0))
      (k0_pay63 (k0_pay59 (k0_pay5 x1) (k0_pay6 x0) (k0_pay7 x0)) (k0_pay60 (iota Kind.tc S1x128 32 [1] iota_S1x128_d1_w32))
        (k0_pay55 (k0_pay50 (k0_pay5 x1) (k0_pay6 x0) (k0_pay7 x0)) (k0_pay51 (iota Kind.tc S1x128 32 [1] iota_S1x128_d1_w32))
          (k0_pay47 (k0_pay43 (k0_pay5 x1) (k0_pay6 x0) (k0_pay7 x0)) (k0_pay44 (iota Kind.tc S1x128 32 [1] iota_S1x128_d1_w32))
            (k0_pay40 (k0_pay35 (k0_pay5 x1) (k0_pay6 x0) (k0_pay7 x0)) (k0_pay36 (iota Kind.tc S1x128 32 [1] iota_S1x128_d1_w32))
              (k0_pay33 (k0_pay29 (iota Kind.tc S1x128 32 [1] iota_S1x128_d1_w32))
                (k0_pay27 (k0_pay5 x1) (iota Kind.tc S1x128 32 [1] iota_S1x128_d1_w32) (k0_pay23 (k0_pay6 x0) (k0_pay7 x0))
                  (k0_pay22 (k0_pay5 x1) (iota Kind.tc S1x128 32 [1] iota_S1x128_d1_w32) (k0_pay16 (k0_pay6 x0) (k0_pay7 x0))
                    (k0_pay15 (iota Kind.tc S1x128 32 [1] iota_S1x128_d1_w32) (k0_pay11 x0 x1) acc)))
                (k0_pay32 (k0_pay5 x1) (k0_pay6 x0) (k0_pay7 x0))))))))

end Cert.Hist

end
-- ==== Proof.Pieces.lean ====
/-
  What one run of the kernel body leaves in the three carried lane vectors and, at the last grid point, in the three
  outputs. In every case each scratch is stored whole ten times (eleven at the first point, which zeroes it first), every
  store reading back what the store before left, so the scratch ends at the last store's payload: one step (ten bin
  additions) from the vector it started with. At the last point each output is a copy of its scratch.
-/
import proofs.«179092_j17343077941754_2_alg».proof.Proof.Gen.KernelIdeal.Frame
import Idealize.ShloMosaic.Lib.Pipeline.Value
import Idealize.ShloMosaic.Lib.Tactic
import proofs.«179092_j17343077941754_2_alg».proof.Proof.Stores
import proofs.«179092_j17343077941754_2_alg».proof.Proof.Chains

noncomputable section

namespace Cert.Hist

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- Case A, the counts: the scratch ends at one step from the zero vector the case first stores. -/
theorem sout_A_0 (c : Dev nD) (i : grid0.Coords) (a1 : Memref sig .tc .vmem S4096x128 .f32) (h1 : a1.IsWhole) (a2 : Memref sig .tc .vmem S4096x128 .i32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (hc0 : cond0_0 i) (hc1 : ¬cond0_1 i)
    (x0 : Vec F S4096x128 .f32) (x1 : Vec F S4096x128 .i32) :
    sout0_A_0 c i a1 h1 a2 h2 a3 h3 a4 h4 a5 h5 a6 h6 a7 h7 a8 h8 hc0 hc1 x0 x1 = cntStep x0 k0_pay1 := by
  unfold sout0_A_0
  rw [View.read_writes_eq_canon _ _ _ (scover0_A_0 c i a1 h1 a2 h2 a3 h3 a4 h4 a5 h5 a6 h6 a7 h7 a8 h8 hc0 hc1 x0 x1)]
  unfold kernelRun0_A
  dsimp only
  sl_unfold_words
  rw [View.canon_cons_unit_zero (S := S1x128) hz]
  simp only [readCov_cons_unit_zero (S := S1x128) _ hz, View.readAt_eq_ld, h1.read_unread, h2.read_unread, h6.read_unread, h7.read_unread, h8.read_unread,
    View.ld_unit_zero (S := S4096x128) hz, View.ld_unit_zero (S := S1x128) hz]
  rfl

/-- Case A, the confidence sums: the scratch ends at one step from the zero vector the case first stores. -/
theorem sout_A_1 (c : Dev nD) (i : grid0.Coords) (a1 : Memref sig .tc .vmem S4096x128 .f32) (h1 : a1.IsWhole) (a2 : Memref sig .tc .vmem S4096x128 .i32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (hc0 : cond0_0 i) (hc1 : ¬cond0_1 i)
    (x0 : Vec F S4096x128 .f32) (x1 : Vec F S4096x128 .i32) :
    sout0_A_1 c i a1 h1 a2 h2 a3 h3 a4 h4 a5 h5 a6 h6 a7 h7 a8 h8 hc0 hc1 x0 x1 = confStep x0 k0_pay2 := by
  unfold sout0_A_1
  rw [View.read_writes_eq_canon _ _ _ (scover0_A_1 c i a1 h1 a2 h2 a3 h3 a4 h4 a5 h5 a6 h6 a7 h7 a8 h8 hc0 hc1 x0 x1)]
  unfold kernelRun0_A
  dsimp only
  sl_unfold_words
  rw [View.canon_cons_unit_zero (S := S1x128) hz]
  simp only [readCov_cons_unit_zero (S := S1x128) _ hz, View.readAt_eq_ld, h1.read_unread, h2.read_unread, h6.read_unread, h7.read_unread, h8.read_unread,
    View.ld_unit_zero (S := S4096x128) hz, View.ld_unit_zero (S := S1x128) hz]
  rfl

/-- Case A, the label sums: the scratch ends at one step from the zero vector the case first stores. -/
theorem sout_A_2 (c : Dev nD) (i : grid0.Coords) (a1 : Memref sig .tc .vmem S4096x128 .f32) (h1 : a1.IsWhole) (a2 : Memref sig .tc .vmem S4096x128 .i32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (hc0 : cond0_0 i) (hc1 : ¬cond0_1 i)
    (x0 : Vec F S4096x128 .f32) (x1 : Vec F S4096x128 .i32) :
    sout0_A_2 c i a1 h1 a2 h2 a3 h3 a4 h4 a5 h5 a6 h6 a7 h7 a8 h8 hc0 hc1 x0 x1 = labStep x0 x1 k0_pay3 := by
  unfold sout0_A_2
  rw [View.read_writes_eq_canon _ _ _ (scover0_A_2 c i a1 h1 a2 h2 a3 h3 a4 h4 a5 h5 a6 h6 a7 h7 a8 h8 hc0 hc1 x0 x1)]
  unfold kernelRun0_A
  dsimp only
  sl_unfold_words
  rw [View.canon_cons_unit_zero (S := S1x128) hz]
  simp only [readCov_cons_unit_zero (S := S1x128) _ hz, View.readAt_eq_ld, h1.read_unread, h2.read_unread, h6.read_unread, h7.read_unread, h8.read_unread,
    View.ld_unit_zero (S := S4096x128) hz, View.ld_unit_zero (S := S1x128) hz]
  rfl

/-- Case B, the counts: the scratch ends at one step from what the point before left. -/
theorem sout_B_0 (c : Dev nD) (i : grid0.Coords) (a1 : Memref sig .tc .vmem S4096x128 .f32) (h1 : a1.IsWhole) (a2 : Memref sig .tc .vmem S4096x128 .i32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (hc0 : ¬cond0_0 i) (hc1 : ¬cond0_1 i)
    (x0 : Vec F S4096x128 .f32) (x1 : Vec F S4096x128 .i32) (xs0 xs1 xs2 : Vec F S1x128 .f32) :
    sout0_B_0 c i a1 h1 a2 h2 a3 h3 a4 h4 a5 h5 a6 h6 a7 h7 a8 h8 hc0 hc1 x0 x1 xs0 xs1 xs2 = cntStep x0 xs0 := by
  unfold sout0_B_0
  rw [View.read_writes_eq_canon _ _ _ (scover0_B_0 c i a1 h1 a2 h2 a3 h3 a4 h4 a5 h5 a6 h6 a7 h7 a8 h8 hc0 hc1 x0 x1 xs0 xs1 xs2)]
  unfold kernelRun0_B
  dsimp only
  sl_unfold_words
  rw [View.canon_cons_unit_zero (S := S1x128) hz]
  simp only [readCov_cons_unit_zero (S := S1x128) _ hz, View.readAt_eq_ld, h1.read_unread, h2.read_unread, h6.read_unread, h7.read_unread, h8.read_unread,
    View.ld_unit_zero (S := S4096x128) hz, View.ld_unit_zero (S := S1x128) hz]
  rfl

/-- Case B, the confidence sums: the scratch ends at one step from what the point before left. -/
theorem sout_B_1 (c : Dev nD) (i : grid0.Coords) (a1 : Memref sig .tc .vmem S4096x128 .f32) (h1 : a1.IsWhole) (a2 : Memref sig .tc .vmem S4096x128 .i32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (hc0 : ¬cond0_0 i) (hc1 : ¬cond0_1 i)
    (x0 : Vec F S4096x128 .f32) (x1 : Vec F S4096x128 .i32) (xs0 xs1 xs2 : Vec F S1x128 .f32) :
    sout0_B_1 c i a1 h1 a2 h2 a3 h3 a4 h4 a5 h5 a6 h6 a7 h7 a8 h8 hc0 hc1 x0 x1 xs0 xs1 xs2 = confStep x0 xs1 := by
  unfold sout0_B_1
  rw [View.read_writes_eq_canon _ _ _ (scover0_B_1 c i a1 h1 a2 h2 a3 h3 a4 h4 a5 h5 a6 h6 a7 h7 a8 h8 hc0 hc1 x0 x1 xs0 xs1 xs2)]
  unfold kernelRun0_B
  dsimp only
  sl_unfold_words
  rw [View.canon_cons_unit_zero (S := S1x128) hz]
  simp only [readCov_cons_unit_zero (S := S1x128) _ hz, View.readAt_eq_ld, h1.read_unread, h2.read_unread, h6.read_unread, h7.read_unread, h8.read_unread,
    View.ld_unit_zero (S := S4096x128) hz, View.ld_unit_zero (S := S1x128) hz]
  rfl

/-- Case B, the label sums: the scratch ends at one step from what the point before left. -/
theorem sout_B_2 (c : Dev nD) (i : grid0.Coords) (a1 : Memref sig .tc .vmem S4096x128 .f32) (h1 : a1.IsWhole) (a2 : Memref sig .tc .vmem S4096x128 .i32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (hc0 : ¬cond0_0 i) (hc1 : ¬cond0_1 i)
    (x0 : Vec F S4096x128 .f32) (x1 : Vec F S4096x128 .i32) (xs0 xs1 xs2 : Vec F S1x128 .f32) :
    sout0_B_2 c i a1 h1 a2 h2 a3 h3 a4 h4 a5 h5 a6 h6 a7 h7 a8 h8 hc0 hc1 x0 x1 xs0 xs1 xs2 = labStep x0 x1 xs2 := by
  unfold sout0_B_2
  rw [View.read_writes_eq_canon _ _ _ (scover0_B_2 c i a1 h1 a2 h2 a3 h3 a4 h4 a5 h5 a6 h6 a7 h7 a8 h8 hc0 hc1 x0 x1 xs0 xs1 xs2)]
  unfold kernelRun0_B
  dsimp only
  sl_unfold_words
  rw [View.canon_cons_unit_zero (S := S1x128) hz]
  simp only [readCov_cons_unit_zero (S := S1x128) _ hz, View.readAt_eq_ld, h1.read_unread, h2.read_unread, h6.read_unread, h7.read_unread, h8.read_unread,
    View.ld_unit_zero (S := S4096x128) hz, View.ld_unit_zero (S := S1x128) hz]
  rfl

/-- Case C, the counts: the scratch ends at one step from what the point before left. -/
theorem sout_C_0 (c : Dev nD) (i : grid0.Coords) (a1 : Memref sig .tc .vmem S4096x128 .f32) (h1 : a1.IsWhole) (a2 : Memref sig .tc .vmem S4096x128 .i32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (hc0 : ¬cond0_0 i) (hc1 : cond0_1 i)
    (x0 : Vec F S4096x128 .f32) (x1 : Vec F S4096x128 .i32) (xs0 xs1 xs2 : Vec F S1x128 .f32) :
    sout0_C_0 c i a1 h1 a2 h2 a3 h3 a4 h4 a5 h5 a6 h6 a7 h7 a8 h8 hc0 hc1 x0 x1 xs0 xs1 xs2 = cntStep x0 xs0 := by
  unfold sout0_C_0
  rw [View.read_writes_eq_canon _ _ _ (scover0_C_0 c i a1 h1 a2 h2 a3 h3 a4 h4 a5 h5 a6 h6 a7 h7 a8 h8 hc0 hc1 x0 x1 xs0 xs1 xs2)]
  unfold kernelRun0_C
  dsimp only
  sl_unfold_words
  rw [View.canon_cons_unit_zero (S := S1x128) hz]
  simp only [readCov_cons_unit_zero (S := S1x128) _ hz, View.readAt_eq_ld, h1.read_unread, h2.read_unread, h6.read_unread, h7.read_unread, h8.read_unread,
    View.ld_unit_zero (S := S4096x128) hz, View.ld_unit_zero (S := S1x128) hz]
  rfl

/-- Case C, the confidence sums: the scratch ends at one step from what the point before left. -/
theorem sout_C_1 (c : Dev nD) (i : grid0.Coords) (a1 : Memref sig .tc .vmem S4096x128 .f32) (h1 : a1.IsWhole) (a2 : Memref sig .tc .vmem S4096x128 .i32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (hc0 : ¬cond0_0 i) (hc1 : cond0_1 i)
    (x0 : Vec F S4096x128 .f32) (x1 : Vec F S4096x128 .i32) (xs0 xs1 xs2 : Vec F S1x128 .f32) :
    sout0_C_1 c i a1 h1 a2 h2 a3 h3 a4 h4 a5 h5 a6 h6 a7 h7 a8 h8 hc0 hc1 x0 x1 xs0 xs1 xs2 = confStep x0 xs1 := by
  unfold sout0_C_1
  rw [View.read_writes_eq_canon _ _ _ (scover0_C_1 c i a1 h1 a2 h2 a3 h3 a4 h4 a5 h5 a6 h6 a7 h7 a8 h8 hc0 hc1 x0 x1 xs0 xs1 xs2)]
  unfold kernelRun0_C
  dsimp only
  sl_unfold_words
  rw [View.canon_cons_unit_zero (S := S1x128) hz]
  simp only [readCov_cons_unit_zero (S := S1x128) _ hz, View.readAt_eq_ld, h1.read_unread, h2.read_unread, h6.read_unread, h7.read_unread, h8.read_unread,
    View.ld_unit_zero (S := S4096x128) hz, View.ld_unit_zero (S := S1x128) hz]
  rfl

/-- Case C, the label sums: the scratch ends at one step from what the point before left. -/
theorem sout_C_2 (c : Dev nD) (i : grid0.Coords) (a1 : Memref sig .tc .vmem S4096x128 .f32) (h1 : a1.IsWhole) (a2 : Memref sig .tc .vmem S4096x128 .i32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (hc0 : ¬cond0_0 i) (hc1 : cond0_1 i)
    (x0 : Vec F S4096x128 .f32) (x1 : Vec F S4096x128 .i32) (xs0 xs1 xs2 : Vec F S1x128 .f32) :
    sout0_C_2 c i a1 h1 a2 h2 a3 h3 a4 h4 a5 h5 a6 h6 a7 h7 a8 h8 hc0 hc1 x0 x1 xs0 xs1 xs2 = labStep x0 x1 xs2 := by
  unfold sout0_C_2
  rw [View.read_writes_eq_canon _ _ _ (scover0_C_2 c i a1 h1 a2 h2 a3 h3 a4 h4 a5 h5 a6 h6 a7 h7 a8 h8 hc0 hc1 x0 x1 xs0 xs1 xs2)]
  unfold kernelRun0_C
  dsimp only
  sl_unfold_words
  rw [View.canon_cons_unit_zero (S := S1x128) hz]
  simp only [readCov_cons_unit_zero (S := S1x128) _ hz, View.readAt_eq_ld, h1.read_unread, h2.read_unread, h6.read_unread, h7.read_unread, h8.read_unread,
    View.ld_unit_zero (S := S4096x128) hz, View.ld_unit_zero (S := S1x128) hz]
  rfl

/-- The last point copies the scratch out: output 2 holds the counts after the step. -/
theorem out_C_2 (c : Dev nD) (i : grid0.Coords) (a1 : Memref sig .tc .vmem S4096x128 .f32) (h1 : a1.IsWhole) (a2 : Memref sig .tc .vmem S4096x128 .i32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (hc0 : ¬cond0_0 i) (hc1 : cond0_1 i)
    (x0 : Vec F S4096x128 .f32) (x1 : Vec F S4096x128 .i32) (xs0 xs1 xs2 : Vec F S1x128 .f32) :
    out0_C_2 c i a1 h1 a2 h2 a3 h3 a4 h4 a5 h5 a6 h6 a7 h7 a8 h8 hc0 hc1 x0 x1 xs0 xs1 xs2 = cntStep x0 xs0 := by
  unfold out0_C_2
  rw [View.read_writes_eq_canon _ _ _ (cover0_C_2 c i a1 h1 a2 h2 a3 h3 a4 h4 a5 h5 a6 h6 a7 h7 a8 h8 hc0 hc1 x0 x1 xs0 xs1 xs2)]
  unfold kernelRun0_C
  dsimp only
  sl_unfold_words
  rw [View.canon_cons_unit_zero (S := S1x128) hz]
  simp only [readCov_cons_unit_zero (S := S1x128) _ hz, View.readAt_eq_ld, h1.read_unread, h2.read_unread, h6.read_unread, h7.read_unread, h8.read_unread,
    View.ld_unit_zero (S := S4096x128) hz, View.ld_unit_zero (S := S1x128) hz]
  rfl

/-- The last point copies the scratch out: output 3 holds the confidence sums after the step. -/
theorem out_C_3 (c : Dev nD) (i : grid0.Coords) (a1 : Memref sig .tc .vmem S4096x128 .f32) (h1 : a1.IsWhole) (a2 : Memref sig .tc .vmem S4096x128 .i32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (hc0 : ¬cond0_0 i) (hc1 : cond0_1 i)
    (x0 : Vec F S4096x128 .f32) (x1 : Vec F S4096x128 .i32) (xs0 xs1 xs2 : Vec F S1x128 .f32) :
    out0_C_3 c i a1 h1 a2 h2 a3 h3 a4 h4 a5 h5 a6 h6 a7 h7 a8 h8 hc0 hc1 x0 x1 xs0 xs1 xs2 = confStep x0 xs1 := by
  unfold out0_C_3
  rw [View.read_writes_eq_canon _ _ _ (cover0_C_3 c i a1 h1 a2 h2 a3 h3 a4 h4 a5 h5 a6 h6 a7 h7 a8 h8 hc0 hc1 x0 x1 xs0 xs1 xs2)]
  unfold kernelRun0_C
  dsimp only
  sl_unfold_words
  rw [View.canon_cons_unit_zero (S := S1x128) hz]
  simp only [readCov_cons_unit_zero (S := S1x128) _ hz, View.readAt_eq_ld, h1.read_unread, h2.read_unread, h6.read_unread, h7.read_unread, h8.read_unread,
    View.ld_unit_zero (S := S4096x128) hz, View.ld_unit_zero (S := S1x128) hz]
  rfl

/-- The last point copies the scratch out: output 4 holds the label sums after the step. -/
theorem out_C_4 (c : Dev nD) (i : grid0.Coords) (a1 : Memref sig .tc .vmem S4096x128 .f32) (h1 : a1.IsWhole) (a2 : Memref sig .tc .vmem S4096x128 .i32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (hc0 : ¬cond0_0 i) (hc1 : cond0_1 i)
    (x0 : Vec F S4096x128 .f32) (x1 : Vec F S4096x128 .i32) (xs0 xs1 xs2 : Vec F S1x128 .f32) :
    out0_C_4 c i a1 h1 a2 h2 a3 h3 a4 h4 a5 h5 a6 h6 a7 h7 a8 h8 hc0 hc1 x0 x1 xs0 xs1 xs2 = labStep x0 x1 xs2 := by
  unfold out0_C_4
  rw [View.read_writes_eq_canon _ _ _ (cover0_C_4 c i a1 h1 a2 h2 a3 h3 a4 h4 a5 h5 a6 h6 a7 h7 a8 h8 hc0 hc1 x0 x1 xs0 xs1 xs2)]
  unfold kernelRun0_C
  dsimp only
  sl_unfold_words
  rw [View.canon_cons_unit_zero (S := S1x128) hz]
  simp only [readCov_cons_unit_zero (S := S1x128) _ hz, View.readAt_eq_ld, h1.read_unread, h2.read_unread, h6.read_unread, h7.read_unread, h8.read_unread,
    View.ld_unit_zero (S := S4096x128) hz, View.ld_unit_zero (S := S1x128) hz]
  rfl

end Cert.Hist

end
-- ==== Proof.Accum.lean ====
/-
  The three lane vectors the kernel carries from grid point to grid point — counts, confidence sums, label sums —
  after point `n`: at point 0 one step from the zero vectors over block 0, afterwards one step from what the point
  before left, over block `n`. What the frame's run finds point by point is this recursion; and at the last point
  the three outputs hold the same three vectors.
-/
import proofs.«179092_j17343077941754_2_alg».proof.Proof.Gen.KernelIdeal.Frame
import proofs.«179092_j17343077941754_2_alg».proof.Proof.Pieces

noncomputable section

namespace Cert.Hist

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The block of confidences the kernel reads at point `t`. -/
def blk0 (c : Dev nD) (t : Fin cfg0.N) : Vec F S4096x128 .f32 := iblk m c 0 t

/-- The block of labels the kernel reads at point `t`. -/
def blk1 (c : Dev nD) (t : Fin cfg0.N) : Vec F S4096x128 .i32 := iblk m c 1 t

/-- The carried vectors after point `n`: (counts, confidence sums, label sums). -/
def carried (c : Dev nD) : (n : ℕ) → n < cfg0.N → Vec F S1x128 .f32 × Vec F S1x128 .f32 × Vec F S1x128 .f32
  | 0, h => (cntStep (blk0 m c ⟨0, h⟩) k0_pay1, confStep (blk0 m c ⟨0, h⟩) k0_pay2,
      labStep (blk0 m c ⟨0, h⟩) (blk1 m c ⟨0, h⟩) k0_pay3)
  | n + 1, h => (cntStep (blk0 m c ⟨n + 1, h⟩) (carried c n (Nat.lt_of_succ_lt h)).1,
      confStep (blk0 m c ⟨n + 1, h⟩) (carried c n (Nat.lt_of_succ_lt h)).2.1,
      labStep (blk0 m c ⟨n + 1, h⟩) (blk1 m c ⟨n + 1, h⟩) (carried c n (Nat.lt_of_succ_lt h)).2.2)

theorem carried_zero (c : Dev nD) (h : 0 < cfg0.N) :
    carried m c 0 h = (cntStep (blk0 m c ⟨0, h⟩) k0_pay1, confStep (blk0 m c ⟨0, h⟩) k0_pay2,
      labStep (blk0 m c ⟨0, h⟩) (blk1 m c ⟨0, h⟩) k0_pay3) := rfl

theorem carried_succ (c : Dev nD) (n : ℕ) (h : n + 1 < cfg0.N) :
    carried m c (n + 1) h = (cntStep (blk0 m c ⟨n + 1, h⟩) (carried m c n (Nat.lt_of_succ_lt h)).1,
      confStep (blk0 m c ⟨n + 1, h⟩) (carried m c n (Nat.lt_of_succ_lt h)).2.1,
      labStep (blk0 m c ⟨n + 1, h⟩) (blk1 m c ⟨n + 1, h⟩) (carried m c n (Nat.lt_of_succ_lt h)).2.2) := rfl

/-- What the run leaves in the three scratch vectors after point `n` is the recursion. -/
theorem scratch_eq (c : Dev nD) : ∀ (n : ℕ) (h : n < cfg0.N), (outsAt0 m c n h).2.2.2 = carried m c n h
  | 0, h => by
    refine (congrArg (fun o => o.2.2.2) (outsAt0_A m c ⟨0, h⟩ rfl (by show ¬(0 : ℕ) % 64 = 63; decide))).trans ?_
    dsimp only
    rw [sout_A_0, sout_A_1, sout_A_2]
    rfl
  | n + 1, h => by
    have hN : cfg0.N = 64 := N_0
    have h0 : ¬(⟨n + 1, h⟩ : Fin cfg0.N).val % 64 = 0 := by dsimp only; omega
    have ih := scratch_eq c n (Nat.lt_of_succ_lt h)
    by_cases h1 : (⟨n + 1, h⟩ : Fin cfg0.N).val % 64 = 63
    · refine (congrArg (fun o => o.2.2.2) (outsAt0_C m c ⟨n + 1, h⟩ h0 h1)).trans ?_
      dsimp only
      rw [sout_C_0, sout_C_1, sout_C_2]
      show (cntStep _ (outsAt0 m c n _).2.2.2.1, confStep _ (outsAt0 m c n _).2.2.2.2.1,
        labStep _ _ (outsAt0 m c n _).2.2.2.2.2) = _
      rw [show (outsAt0 m c n (Nat.lt_of_succ_lt h)).2.2.2.1 = (carried m c n (Nat.lt_of_succ_lt h)).1 from congrArg (·.1) ih,
        show (outsAt0 m c n (Nat.lt_of_succ_lt h)).2.2.2.2.1 = (carried m c n (Nat.lt_of_succ_lt h)).2.1 from congrArg (·.2.1) ih,
        show (outsAt0 m c n (Nat.lt_of_succ_lt h)).2.2.2.2.2 = (carried m c n (Nat.lt_of_succ_lt h)).2.2 from congrArg (·.2.2) ih]
      rfl
    · refine (congrArg (fun o => o.2.2.2) (outsAt0_B m c ⟨n + 1, h⟩ h0 h1)).trans ?_
      dsimp only
      rw [sout_B_0, sout_B_1, sout_B_2]
      show (cntStep _ (outsAt0 m c n _).2.2.2.1, confStep _ (outsAt0 m c n _).2.2.2.2.1,
        labStep _ _ (outsAt0 m c n _).2.2.2.2.2) = _
      rw [show (outsAt0 m c n (Nat.lt_of_succ_lt h)).2.2.2.1 = (carried m c n (Nat.lt_of_succ_lt h)).1 from congrArg (·.1) ih,
        show (outsAt0 m c n (Nat.lt_of_succ_lt h)).2.2.2.2.1 = (carried m c n (Nat.lt_of_succ_lt h)).2.1 from congrArg (·.2.1) ih,
        show (outsAt0 m c n (Nat.lt_of_succ_lt h)).2.2.2.2.2 = (carried m c n (Nat.lt_of_succ_lt h)).2.2 from congrArg (·.2.2) ih]
      rfl

/-- At a point where the outputs are stored (the last) they hold the three carried vectors. -/
theorem outs_last (c : Dev nD) (n : ℕ) (h : n + 1 < cfg0.N) (h1 : (n + 1) % 64 = 63) :
    ((outsAt0 m c (n + 1) h).1, (outsAt0 m c (n + 1) h).2.1, (outsAt0 m c (n + 1) h).2.2.1) = carried m c (n + 1) h := by
  have hN : cfg0.N = 64 := N_0
  have h0 : ¬(⟨n + 1, h⟩ : Fin cfg0.N).val % 64 = 0 := by dsimp only; omega
  have ih := scratch_eq m c n (Nat.lt_of_succ_lt h)
  refine (congrArg (fun o => (o.1, o.2.1, o.2.2.1)) (outsAt0_C m c ⟨n + 1, h⟩ h0 h1)).trans ?_
  dsimp only
  rw [out_C_2, out_C_3, out_C_4]
  show (cntStep _ (outsAt0 m c n _).2.2.2.1, confStep _ (outsAt0 m c n _).2.2.2.2.1,
    labStep _ _ (outsAt0 m c n _).2.2.2.2.2) = _
  rw [show (outsAt0 m c n (Nat.lt_of_succ_lt h)).2.2.2.1 = (carried m c n (Nat.lt_of_succ_lt h)).1 from congrArg (·.1) ih,
    show (outsAt0 m c n (Nat.lt_of_succ_lt h)).2.2.2.2.1 = (carried m c n (Nat.lt_of_succ_lt h)).2.1 from congrArg (·.2.1) ih,
    show (outsAt0 m c n (Nat.lt_of_succ_lt h)).2.2.2.2.2 = (carried m c n (Nat.lt_of_succ_lt h)).2.2 from congrArg (·.2.2) ih]
  rfl

end Cert.Hist

end
-- ==== Proof.Final.lean ====
/-
  The three output arrays after the region. Each output window's index never moves and it is written back once, after
  the last grid point, its one block the whole [1, 128] array: so each array ends holding the carried vector — counts,
  confidence sums, label sums — after point 63.
-/
import proofs.«179092_j17343077941754_2_alg».proof.Proof.Gen.KernelIdeal.Frame
import Idealize.ShloMosaic.Lib.Pipeline.Value
import proofs.«179092_j17343077941754_2_alg».proof.Proof.Accum

noncomputable section

namespace Cert.Hist

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

theorem lastLt : 62 + 1 < cfg0.N := by rw [show cfg0.N = 64 from N_0]; decide

/-- The last grid point. -/
abbrev tLast : Fin cfg0.N := ⟨62 + 1, lastLt⟩

/-- The counts after the last point, as contents of output array 0. -/
abbrev res2 (c : Dev nD) : Buf (Elt F) ((c : Thread nD τ).loc main_v2_0) := (carried m c (62 + 1) lastLt).1

/-- The one write-back of window 2, at the last point, writes them: its block is the whole [1, 128] array. -/
theorem flushed_eq2 (c : Dev nD) (t : Fin cfg0.N) (hf : (cfg0.win 2).flush t = true) :
    (dats m 0 c).flushed 2 t = ((cfg0.win 2).blk t).view.read (Elt F) (res2 m c) := by
  have hN : cfg0.N = 64 := N_0
  have h63 : t.val = 62 + 1 := by have := (flush0_2 t).mp hf; have := t.isLt; omega
  obtain rfl : t = tLast := Fin.ext h63
  show (cfg0.win 2).cut (grid0.coords tLast) ((dats m 0 c).after 2 tLast) = _
  rw [after0_2]
  rw [show (outsAt0 m c (62 + 1) lastLt).1 = (carried m c (62 + 1) lastLt).1 from congrArg (·.1) (outs_last m c 62 lastLt rfl)]
  have hz' : (fun a => win0_2.index tLast a * main_v2_0.ty.shape.size a) = fun _ => 0 := funext fun a => by fin_cases a <;> decide
  exact (Memref.read_access_unit_zero (Elt F) main_v2_0 hz' (fun a => by rw [congrFun hz' a]; simp) (res2 m c)).symm

/-- So output array 0 ends holding the counts after the last point. -/
theorem final2 (c : Dev nD) : (dats m 0 c).arrAt 2 cfg0.N = res2 m c :=
  (dats m 0 c).arrAt_eq_of_cover 2 (res2 m c) (flushed_eq2 m c) fun i =>
    ⟨tLast, (flush0_2 tLast).mpr rfl, by
      show i ∈ ((View.whole main_v2_0).slice (win0_2.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 128 from by decide +kernel]; omega⟩

/-- The confidence sums after the last point, as contents of output array 1. -/
abbrev res3 (c : Dev nD) : Buf (Elt F) ((c : Thread nD τ).loc main_v2_1) := (carried m c (62 + 1) lastLt).2.1

/-- The one write-back of window 3, at the last point, writes them: its block is the whole [1, 128] array. -/
theorem flushed_eq3 (c : Dev nD) (t : Fin cfg0.N) (hf : (cfg0.win 3).flush t = true) :
    (dats m 0 c).flushed 3 t = ((cfg0.win 3).blk t).view.read (Elt F) (res3 m c) := by
  have hN : cfg0.N = 64 := N_0
  have h63 : t.val = 62 + 1 := by have := (flush0_3 t).mp hf; have := t.isLt; omega
  obtain rfl : t = tLast := Fin.ext h63
  show (cfg0.win 3).cut (grid0.coords tLast) ((dats m 0 c).after 3 tLast) = _
  rw [after0_3]
  rw [show (outsAt0 m c (62 + 1) lastLt).2.1 = (carried m c (62 + 1) lastLt).2.1 from congrArg (·.2.1) (outs_last m c 62 lastLt rfl)]
  have hz' : (fun a => win0_3.index tLast a * main_v2_1.ty.shape.size a) = fun _ => 0 := funext fun a => by fin_cases a <;> decide
  exact (Memref.read_access_unit_zero (Elt F) main_v2_1 hz' (fun a => by rw [congrFun hz' a]; simp) (res3 m c)).symm

/-- So output array 1 ends holding the confidence sums after the last point. -/
theorem final3 (c : Dev nD) : (dats m 0 c).arrAt 3 cfg0.N = res3 m c :=
  (dats m 0 c).arrAt_eq_of_cover 3 (res3 m c) (flushed_eq3 m c) fun i =>
    ⟨tLast, (flush0_3 tLast).mpr rfl, by
      show i ∈ ((View.whole main_v2_1).slice (win0_3.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 128 from by decide +kernel]; omega⟩

/-- The label sums after the last point, as contents of output array 2. -/
abbrev res4 (c : Dev nD) : Buf (Elt F) ((c : Thread nD τ).loc main_v2_2) := (carried m c (62 + 1) lastLt).2.2

/-- The one write-back of window 4, at the last point, writes them: its block is the whole [1, 128] array. -/
theorem flushed_eq4 (c : Dev nD) (t : Fin cfg0.N) (hf : (cfg0.win 4).flush t = true) :
    (dats m 0 c).flushed 4 t = ((cfg0.win 4).blk t).view.read (Elt F) (res4 m c) := by
  have hN : cfg0.N = 64 := N_0
  have h63 : t.val = 62 + 1 := by have := (flush0_4 t).mp hf; have := t.isLt; omega
  obtain rfl : t = tLast := Fin.ext h63
  show (cfg0.win 4).cut (grid0.coords tLast) ((dats m 0 c).after 4 tLast) = _
  rw [after0_4]
  rw [show (outsAt0 m c (62 + 1) lastLt).2.2.1 = (carried m c (62 + 1) lastLt).2.2 from congrArg (·.2.2) (outs_last m c 62 lastLt rfl)]
  have hz' : (fun a => win0_4.index tLast a * main_v2_2.ty.shape.size a) = fun _ => 0 := funext fun a => by fin_cases a <;> decide
  exact (Memref.read_access_unit_zero (Elt F) main_v2_2 hz' (fun a => by rw [congrFun hz' a]; simp) (res4 m c)).symm

/-- So output array 2 ends holding the label sums after the last point. -/
theorem final4 (c : Dev nD) : (dats m 0 c).arrAt 4 cfg0.N = res4 m c :=
  (dats m 0 c).arrAt_eq_of_cover 4 (res4 m c) (flushed_eq4 m c) fun i =>
    ⟨tLast, (flush0_4 tLast).mpr rfl, by
      show i ∈ ((View.whole main_v2_2).slice (win0_4.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 128 from by decide +kernel]; omega⟩

end Cert.Hist

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.Lanes.lean ====
/-
  A block of 4096 rows by 128 lanes summed in two steps, as the kernel does it: first every row over its lanes,
  the row sums kept as a column, then that column over its rows, the total kept as a single cell; the cell is then
  spread along the 128 lanes of a row. Read at an index, at the ideal values, the row step is a sum over the lanes,
  the column step a sum over the rows, and the spread cell is the cell. Also here: the pointwise operations read at an index.
-/
import Idealize.ShloMosaic.PureOps.Ideal
import Idealize.ShloMosaic.PureOps.Ideal.Laws
import Idealize.ShloMosaic.Lib.ValueIdx
import Idealize.ShloMosaic.Lib.Pipeline.Value
import proofs.«179092_j17343077941754_2_alg».proof.Proof.LibKeepdims

noncomputable section

namespace Cert.Hist

open Idealize.ShloMosaic Idealize.ShloMosaic.ValueIdx

/-- Over row `r` of the column of row sums, lane `l` of the block is entry `(r, l)`. -/
theorem lift_lane (h : (⟨2, ![4096, 128]⟩ : Shape).Reduces [1] ⟨1, ![4096]⟩) (r : Fin 4096) (l : Fin 128) :
    h.lift (ix1 r) l = ix2 r l := by
  funext c
  apply Fin.ext
  show h.liftVal (ix1 r) l.val c = (ix2 r l c).val
  unfold Shape.Reduces.liftVal
  match c with
  | ⟨0, _⟩ => rfl
  | ⟨1, _⟩ => rfl

/-- Over the single cell of the total, row `r` of the column is entry `(r, 0)`. -/
theorem lift_row (h : (⟨2, ![4096, 1]⟩ : Shape).Reduces [0] ⟨1, ![1]⟩) (u : Fin 1) (r : Fin 4096) :
    h.lift (ix1 u) r = ix2 r u := by
  funext c
  apply Fin.ext
  show h.liftVal (ix1 u) r.val c = (ix2 r u c).val
  unfold Shape.Reduces.liftVal
  match c with
  | ⟨0, _⟩ => rfl
  | ⟨1, _⟩ => rfl

/-- THE ROW STEP: the sum over the lanes, kept as a column, read at row `r`. -/
theorem rowSums_apply (v : FVec Ideal ⟨2, ![4096, 128]⟩ .f32) (h : (⟨2, ![4096, 128]⟩ : Shape).Reduces [1] ⟨1, ![4096]⟩)
    (hφ : FKind.Formats .f32) (hacc : (0x00000000#32 : BitVec 32) = 0x00000000#32)
    (hc : (⟨1, ![4096]⟩ : Shape).ShapeCasts ⟨2, ![4096, 1]⟩) (r : Fin 4096) (u : Fin 1) :
    shapeCast ⟨2, ![4096, 1]⟩ (multiReduction .add [1] ⟨1, ![4096]⟩ v 0x00000000#32 h hφ hacc) hc (ix2 r u)
      = ∑ l : Fin 128, v (ix2 r l) := by
  rw [shapeCast_a_a1_apply]
  refine (Ideal.multiReduction_add_single v 0x00000000#32 h hφ hacc (ix1 r)).trans ?_
  exact Finset.sum_congr rfl fun l _ => congrArg v (lift_lane h r l)

/-- THE COLUMN STEP: the sum of a column over its rows, kept as a single cell. -/
theorem colSum_apply (w : FVec Ideal ⟨2, ![4096, 1]⟩ .f32) (h : (⟨2, ![4096, 1]⟩ : Shape).Reduces [0] ⟨1, ![1]⟩)
    (hφ : FKind.Formats .f32) (hacc : (0x00000000#32 : BitVec 32) = 0x00000000#32)
    (hc : (⟨1, ![1]⟩ : Shape).ShapeCasts ⟨2, ![1, 1]⟩) (p : Fin 1) (u : Fin 1) :
    shapeCast ⟨2, ![1, 1]⟩ (multiReduction .add [0] ⟨1, ![1]⟩ w 0x00000000#32 h hφ hacc) hc (ix2 p u)
      = ∑ r : Fin 4096, w (ix2 r p) := by
  rw [shapeCast_a_a1_apply]
  refine (Ideal.multiReduction_add_single w 0x00000000#32 h hφ hacc (ix1 p)).trans ?_
  exact Finset.sum_congr rfl fun r _ => congrArg w (lift_row h p r)

/-- THE TWO STEPS TOGETHER: the single cell the block is reduced to holds the sum of all its entries, rows outermost. -/
theorem total_apply (v : FVec Ideal ⟨2, ![4096, 128]⟩ .f32)
    (h1 : (⟨2, ![4096, 128]⟩ : Shape).Reduces [1] ⟨1, ![4096]⟩) (hφ1 : FKind.Formats .f32)
    (hacc1 : (0x00000000#32 : BitVec 32) = 0x00000000#32) (hc1 : (⟨1, ![4096]⟩ : Shape).ShapeCasts ⟨2, ![4096, 1]⟩)
    (h2 : (⟨2, ![4096, 1]⟩ : Shape).Reduces [0] ⟨1, ![1]⟩) (hφ2 : FKind.Formats .f32)
    (hacc2 : (0x00000000#32 : BitVec 32) = 0x00000000#32) (hc2 : (⟨1, ![1]⟩ : Shape).ShapeCasts ⟨2, ![1, 1]⟩)
    (p : Fin 1) (u : Fin 1) :
    shapeCast ⟨2, ![1, 1]⟩ (multiReduction .add [0] ⟨1, ![1]⟩
        (shapeCast ⟨2, ![4096, 1]⟩ (multiReduction .add [1] ⟨1, ![4096]⟩ v 0x00000000#32 h1 hφ1 hacc1) hc1)
        0x00000000#32 h2 hφ2 hacc2) hc2 (ix2 p u)
      = ∑ r : Fin 4096, ∑ l : Fin 128, v (ix2 r l) := by
  rw [colSum_apply]
  exact Finset.sum_congr rfl fun r _ => rowSums_apply v h1 hφ1 hacc1 hc1 r p

/-- The cell spread along the lanes of a row reads the cell. -/
theorem spread_apply (s : FVec Ideal ⟨2, ![1, 1]⟩ .f32) (h : (⟨2, ![1, 1]⟩ : Shape).Broadcasts ⟨2, ![1, 128]⟩)
    (p : Fin 1) (q : Fin 128) : broadcastTo ⟨2, ![1, 128]⟩ s h (ix2 p q) = s (ix2 p (0 : Fin 1)) :=
  broadcastTo_a1_ab_apply s h p q

/-- The lane counter of a row reads the lane. -/
theorem iota_lane (h : (⟨2, ![1, 128]⟩ : Shape).Iotas .tc 32 [1]) (p : Fin 1) (q : Fin 128) :
    iota .tc ⟨2, ![1, 128]⟩ 32 [1] h (ix2 p q) = BitVec.ofNat 32 q.val := by
  rw [iota_single_apply]

variable {s : Shape} {φ : FTy}

/-! The pointwise operations read at an index. Each is stated as an equation between functions applied to the index
(the equation of functions holds by unfolding; the reading at an index is its instance), so that a rewrite by one of them
compares the two sides as written and never evaluates an entry. -/

theorem mulf_at (a b : FVec Ideal s φ) (i : s.Idx) : mulf a b i = a i * b i :=
  congrFun (rfl : mulf a b = fun j => a j * b j) i
theorem addf_at (a b : FVec Ideal s φ) (i : s.Idx) : addf a b i = a i + b i :=
  congrFun (rfl : addf a b = fun j => a j + b j) i
theorem subf_at (a b : FVec Ideal s φ) (i : s.Idx) : subf a b i = a i - b i :=
  congrFun (rfl : subf a b = fun j => a j - b j) i
theorem maximumf_at (a b : FVec Ideal s φ) (i : s.Idx) : maximumf a b i = max (a i) (b i) :=
  congrFun (rfl : maximumf a b = fun j => max (a j) (b j)) i
theorem minimumf_at (a b : FVec Ideal s φ) (i : s.Idx) : minimumf a b i = min (a i) (b i) :=
  congrFun (rfl : minimumf a b = fun j => min (a j) (b j)) i
theorem ceil_at (a : FVec Ideal s φ) (i : s.Idx) : ceil a i = FloatOps.ceil (a i) :=
  congrFun (rfl : ceil a = fun j => FloatOps.ceil (a j)) i
theorem fptosi_at (w : Nat) (a : FVec Ideal s φ) (i : s.Idx) : fptosi w a i = FloatOps.fptosi w (a i) :=
  congrFun (rfl : fptosi w a = fun j => FloatOps.fptosi w (a j)) i
theorem cmpf_at (p : CmpFPredicate) (a b : FVec Ideal s φ) (i : s.Idx) : cmpf p a b i = FloatOps.cmpf p (a i) (b i) :=
  congrFun (rfl : cmpf p a b = fun j => FloatOps.cmpf p (a j) (b j)) i
theorem sitofp_at {w : Nat} (x : IVec s w) (i : s.Idx) : (sitofp φ x : FVec Ideal s φ) i = FloatOps.sitofp φ (x i) :=
  congrFun (rfl : (sitofp φ x : FVec Ideal s φ) = fun j => FloatOps.sitofp φ (x j)) i
theorem extui_at {w v : Nat} (x : IVec s w) (h : w < v) (i : s.Idx) : extui v x h i = (x i).setWidth v :=
  congrFun (rfl : extui v x h = fun j => (x j).setWidth v) i
theorem cmpi_at {w : Nat} (p : CmpIPredicate) (a b : IVec s w) (i : s.Idx) : cmpi p a b i = IntOp.cmpi p (a i) (b i) :=
  congrFun (rfl : cmpi p a b = fun j => IntOp.cmpi p (a j) (b j)) i
theorem andi_at {w : Nat} (a b : IVec s w) (i : s.Idx) : andi a b i = IntOp.andi (a i) (b i) :=
  congrFun (rfl : andi a b = fun j => IntOp.andi (a j) (b j)) i
theorem broadcast_at {α : Type} (x : α) (i : s.Idx) : broadcast s x i = x :=
  congrFun (rfl : broadcast s x = fun _ => x) i

end Cert.Hist

end
-- ==== Proof.Elem.lean ====
/-
  One sample, at the ideal values, as the kernel reads it: its bin as a 32-bit word (ten times the confidence,
  rounded up, less one, kept between 0 and 9, converted), its weight (1 when the confidence is in (0, 1], else 0),
  and the indicator that two words are equal, as a float.
-/
import Idealize.ShloMosaic.PureOps.Ideal

noncomputable section

namespace Cert.Hist

open Idealize.ShloMosaic

/-- `1` when the words are equal, `0` otherwise. -/
def hotw (a b : BitVec 32) : EReal :=
  FloatOps.sitofp (F := Ideal) .f32 (BitVec.setWidth 32 (IntOp.cmpi .eq a b))

/-- The bin of confidence `c`, computed in floats and then converted: `⌈10 c⌉ - 1` kept between `0` and `9`. -/
def kbin (c : EReal) : BitVec 32 :=
  FloatOps.fptosi (F := Ideal) 32
    (min (FloatOps.ofBits (F := Ideal) .f32 0x41100000#32)
      (max (FloatOps.ofBits (F := Ideal) .f32 0x00000000#32)
        (FloatOps.ceil (F := Ideal) (φ := .f32) (c * FloatOps.ofBits (F := Ideal) .f32 0x41200000#32)
          - FloatOps.ofBits (F := Ideal) .f32 0x3F800000#32)))

/-- The weight of confidence `c`: `1` when `0 < c ≤ 1`, else `0`. -/
def wgt (c : EReal) : EReal :=
  FloatOps.sitofp (F := Ideal) .f32
    (BitVec.setWidth 32
      (IntOp.andi (FloatOps.cmpf (F := Ideal) (φ := .f32) .ogt c (FloatOps.ofBits (F := Ideal) .f32 0x00000000#32))
        (FloatOps.cmpf (F := Ideal) (φ := .f32) .ole c (FloatOps.ofBits (F := Ideal) .f32 0x3F800000#32))))

/-- Sample `l` of row `r` of block `t`, as a position in the flat array of 2^25 samples: blocks of 4096 rows, rows of
    128 samples. -/
def flat (t : Fin 64) (r : Fin 4096) (l : Fin 128) : Fin 33554432 :=
  ⟨(4096 * t.val + r.val) * 128 + l.val, by have := t.isLt; have := r.isLt; have := l.isLt; omega⟩

end Cert.Hist

end
-- ==== Proof.LibKerWords.lean ====
/-
  Words at a cell: comparisons of small naturals read as 32-bit words, the conjunction and the selection on a
  decided bit, and a bit or the zero word as a float.
-/
import Idealize.ShloMosaic.PureOps.Ideal
import Idealize.ShloMosaic.Lib.ValueIdx
import Idealize.ShloMosaic.Lib.ValueLayout
import Idealize.ShloMosaic.Lib.IdealHost

noncomputable section

namespace Cert.KernelIdeal.HostValue

open Idealize.ShloMosaic Idealize.ShloMosaic.ValueIdx

/-- Equality of two small naturals read as 32-bit words. -/
theorem cmpi_eq_ofNat (n k : ℕ) (hn : n < 2 ^ 32) (hk : k < 2 ^ 32) :
    IntOp.cmpi .eq (BitVec.ofNat 32 n) (BitVec.ofNat 32 k) = if n = k then 1#1 else 0#1 := by
  unfold IntOp.cmpi
  by_cases h : n = k
  · subst h; simp
  · have : BitVec.ofNat 32 n ≠ BitVec.ofNat 32 k := fun e => h (by
      have := congrArg BitVec.toNat e
      simp only [BitVec.toNat_ofNat] at this
      rwa [Nat.mod_eq_of_lt hn, Nat.mod_eq_of_lt hk] at this)
    rw [if_neg h, beq_eq_false_iff_ne.mpr this]; rfl

theorem cmpi_ne_ofNat (x y : BitVec 32) :
    IntOp.cmpi .ne x y = if x ≠ y then 1#1 else 0#1 := by
  unfold IntOp.cmpi
  by_cases h : x = y
  · subst h; simp
  · rw [if_pos h, bne_iff_ne.mpr h]; rfl

/-- Signed "at least" of two naturals below 2^31 read as words. -/
theorem cmpi_sge_ofNat (n k : ℕ) (hn : n < 2 ^ 31) (hk : k < 2 ^ 31) :
    IntOp.cmpi .sge (BitVec.ofNat 32 n) (BitVec.ofNat 32 k) = if k ≤ n then 1#1 else 0#1 := by
  unfold IntOp.cmpi
  have e : (BitVec.ofNat 32 k).sle (BitVec.ofNat 32 n) = decide (k ≤ n) := by
    have h1 : (BitVec.ofNat 32 k).toInt = (k : Int) := by
      rw [BitVec.toInt_eq_toNat_cond, BitVec.toNat_ofNat, Nat.mod_eq_of_lt (by omega)]
      rw [if_pos (by omega)]
    have h2 : (BitVec.ofNat 32 n).toInt = (n : Int) := by
      rw [BitVec.toInt_eq_toNat_cond, BitVec.toNat_ofNat, Nat.mod_eq_of_lt (by omega)]
      rw [if_pos (by omega)]
    rw [BitVec.sle, h1, h2]; simp
  simp only [e]
  by_cases h : k ≤ n <;> simp [h]

theorem andi_bit (p q : Prop) [Decidable p] [Decidable q] :
    IntOp.andi (if p then 1#1 else 0#1) (if q then 1#1 else 0#1) = if p ∧ q then 1#1 else 0#1 := by
  unfold IntOp.andi
  by_cases hp : p <;> by_cases hq : q <;> simp [hp, hq]

theorem select_bit {α : Type} (p : Prop) [Decidable p] (a b : α) :
    Scalar.select (if p then 1#1 else 0#1) a b = if p then a else b := by
  by_cases hp : p
  · rw [if_pos hp, if_pos hp]; exact select_one a b
  · rw [if_neg hp, if_neg hp]; exact select_zero a b

theorem uitofp_bit (p : Prop) [Decidable p] :
    FloatOps.uitofp (F := Ideal) .f32 (if p then 1#1 else 0#1) = if p then (1 : EReal) else 0 := by
  by_cases hp : p
  · rw [if_pos hp, if_pos hp]; show ((BitVec.toNat (1#1) : ℝ) : EReal) = 1; simp
  · rw [if_neg hp, if_neg hp]; show ((BitVec.toNat (0#1) : ℝ) : EReal) = 0; simp

theorem sitofp_zero : FloatOps.sitofp (F := Ideal) .f32 (0#32) = (0 : EReal) := by
  show ((BitVec.toInt (0#32) : ℝ) : EReal) = 0; simp

end Cert.KernelIdeal.HostValue
end
-- ==== Proof.Bins.lean ====
/-
  The block totals per bin — over a block of 4096 rows by 128 lanes, the sum of the samples' bin indicator times
  weight, times confidence, times label — and two facts about indicators: the indicator of two small naturals read as
  words is 1 exactly when they are equal, and ten successive additions of indicator times total, one per bin, add to
  the lane's own bin total.
-/
import Idealize.ShloMosaic.PureOps.Ideal
import Idealize.ShloMosaic.Lib.ValueIdx
import proofs.«179092_j17343077941754_2_alg».proof.Proof.Elem
import proofs.«179092_j17343077941754_2_alg».proof.Proof.LibKerWords

noncomputable section

namespace Cert.Hist

open Idealize.ShloMosaic Idealize.ShloMosaic.ValueIdx

/-- The number of the block's valid samples in bin `k`. -/
def cntTot (x0 : (⟨2, ![4096, 128]⟩ : Shape).Idx → EReal) (k : BitVec 32) : EReal :=
  ∑ r : Fin 4096, ∑ l : Fin 128, hotw (kbin (x0 (ix2 r l))) k * wgt (x0 (ix2 r l))

/-- The sum of the confidences of the block's valid samples in bin `k`. -/
def confTot (x0 : (⟨2, ![4096, 128]⟩ : Shape).Idx → EReal) (k : BitVec 32) : EReal :=
  ∑ r : Fin 4096, ∑ l : Fin 128, hotw (kbin (x0 (ix2 r l))) k * wgt (x0 (ix2 r l)) * x0 (ix2 r l)

/-- The sum of the labels of the block's valid samples in bin `k`. -/
def labTot (x0 : (⟨2, ![4096, 128]⟩ : Shape).Idx → EReal) (x1 : (⟨2, ![4096, 128]⟩ : Shape).Idx → BitVec 32)
    (k : BitVec 32) : EReal :=
  ∑ r : Fin 4096, ∑ l : Fin 128,
    hotw (kbin (x0 (ix2 r l))) k * wgt (x0 (ix2 r l)) * FloatOps.sitofp (F := Ideal) .f32 (x1 (ix2 r l))

/-- Two naturals below 2^32, as words: the indicator is 1 when they are equal, 0 otherwise. -/
theorem hotw_ofNat (n k : ℕ) (hn : n < 2 ^ 32) (hk : k < 2 ^ 32) :
    hotw (BitVec.ofNat 32 n) (BitVec.ofNat 32 k) = if n = k then 1 else 0 := by
  unfold hotw
  rw [Cert.KernelIdeal.HostValue.cmpi_eq_ofNat n k hn hk]
  by_cases h : n = k
  · rw [if_pos h, if_pos h]
    show (((BitVec.setWidth 32 (1#1)).toInt : ℝ) : EReal) = 1
    rw [show (BitVec.setWidth 32 (1#1)).toInt = 1 from by decide]
    simp
  · rw [if_neg h, if_neg h]
    show (((BitVec.setWidth 32 (0#1)).toInt : ℝ) : EReal) = 0
    rw [show (BitVec.setWidth 32 (0#1)).toInt = 0 from by decide]
    simp

/-- Ten additions, the `k`-th of the indicator of `j = k` times `T k`, add `T j`. -/
theorem fold10 (a : EReal) (T : ℕ → EReal) (j : ℕ) (hj : j < 10) :
    ((((((((((a + (if j = 0 then (1 : EReal) else 0) * T 0) + (if j = 1 then (1 : EReal) else 0) * T 1) + (if j = 2 then (1 : EReal) else 0) * T 2) + (if j = 3 then (1 : EReal) else 0) * T 3) + (if j = 4 then (1 : EReal) else 0) * T 4) + (if j = 5 then (1 : EReal) else 0) * T 5) + (if j = 6 then (1 : EReal) else 0) * T 6) + (if j = 7 then (1 : EReal) else 0) * T 7) + (if j = 8 then (1 : EReal) else 0) * T 8) + (if j = 9 then (1 : EReal) else 0) * T 9) = a + T j := by
  interval_cases j <;> simp

end Cert.Hist

end
-- ==== Proof.LevelsCnt.lean ====
/-
  One grid point's work on the counts, read at a lane. Each of the ten additions, at the ideal values and at lane
  `q`, adds the indicator of `q = k` times the block's total for bin `k`; so at a lane below ten the whole step
  adds that lane's own bin total.
-/
import proofs.«179092_j17343077941754_2_alg».proof.Proof.Gen.KernelIdeal.Skeleton
import Idealize.ShloMosaic.Lib.Pipeline.Value
import Idealize.ShloMosaic.Lib.ValueIdx
import proofs.«179092_j17343077941754_2_alg».proof.Proof.Lanes
import proofs.«179092_j17343077941754_2_alg».proof.Proof.Elem
import proofs.«179092_j17343077941754_2_alg».proof.Proof.Chains
import proofs.«179092_j17343077941754_2_alg».proof.Proof.Bins

noncomputable section

namespace Cert.Hist

open Idealize.ShloMosaic Idealize.ShloMosaic.ValueIdx Cert.KernelIdeal Cert.KernelIdeal.Gen

theorem cnt_l0 (x0 : Vec Ideal S4096x128 .f32) (acc : Vec Ideal S1x128 .f32) (p : Fin 1) (q : Fin 128) :
    (k0_pay13 (iota Kind.tc S1x128 32 [1] iota_S1x128_d1_w32) (k0_pay9 x0) acc) (ix2 p q) = acc (ix2 p q) + hotw (BitVec.ofNat 32 q.val) 0#32 * cntTot x0 0#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold cntTot hotw kbin wgt
  rfl

theorem cnt_l1 (x0 : Vec Ideal S4096x128 .f32) (acc : Vec Ideal S1x128 .f32) (p : Fin 1) (q : Fin 128) :
    (k0_pay20 (iota Kind.tc S1x128 32 [1] iota_S1x128_d1_w32) (k0_pay17 (k0_pay6 x0) (k0_pay7 x0)) acc) (ix2 p q) = acc (ix2 p q) + hotw (BitVec.ofNat 32 q.val) 1#32 * cntTot x0 1#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold cntTot hotw kbin wgt
  rfl

theorem cnt_l2 (x0 : Vec Ideal S4096x128 .f32) (acc : Vec Ideal S1x128 .f32) (p : Fin 1) (q : Fin 128) :
    (k0_pay25 (iota Kind.tc S1x128 32 [1] iota_S1x128_d1_w32) (k0_pay23 (k0_pay6 x0) (k0_pay7 x0)) acc) (ix2 p q) = acc (ix2 p q) + hotw (BitVec.ofNat 32 q.val) 2#32 * cntTot x0 2#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold cntTot hotw kbin wgt
  rfl

theorem cnt_l3 (x0 : Vec Ideal S4096x128 .f32) (acc : Vec Ideal S1x128 .f32) (p : Fin 1) (q : Fin 128) :
    (k0_pay30 (k0_pay6 x0) (k0_pay7 x0) (iota Kind.tc S1x128 32 [1] iota_S1x128_d1_w32) acc) (ix2 p q) = acc (ix2 p q) + hotw (BitVec.ofNat 32 q.val) 3#32 * cntTot x0 3#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold cntTot hotw kbin wgt
  rfl

theorem cnt_l4 (x0 : Vec Ideal S4096x128 .f32) (acc : Vec Ideal S1x128 .f32) (p : Fin 1) (q : Fin 128) :
    (k0_pay37 (k0_pay6 x0) (k0_pay7 x0) (iota Kind.tc S1x128 32 [1] iota_S1x128_d1_w32) acc) (ix2 p q) = acc (ix2 p q) + hotw (BitVec.ofNat 32 q.val) 4#32 * cntTot x0 4#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold cntTot hotw kbin wgt
  rfl

theorem cnt_l5 (x0 : Vec Ideal S4096x128 .f32) (acc : Vec Ideal S1x128 .f32) (p : Fin 1) (q : Fin 128) :
    (k0_pay45 (k0_pay6 x0) (k0_pay7 x0) (iota Kind.tc S1x128 32 [1] iota_S1x128_d1_w32) acc) (ix2 p q) = acc (ix2 p q) + hotw (BitVec.ofNat 32 q.val) 5#32 * cntTot x0 5#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold cntTot hotw kbin wgt
  rfl

theorem cnt_l6 (x0 : Vec Ideal S4096x128 .f32) (acc : Vec Ideal S1x128 .f32) (p : Fin 1) (q : Fin 128) :
    (k0_pay53 (k0_pay52 (k0_pay6 x0) (k0_pay7 x0) (iota Kind.tc S1x128 32 [1] iota_S1x128_d1_w32) acc)) (ix2 p q) = acc (ix2 p q) + hotw (BitVec.ofNat 32 q.val) 6#32 * cntTot x0 6#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold cntTot hotw kbin wgt
  rfl

theorem cnt_l7 (x0 : Vec Ideal S4096x128 .f32) (acc : Vec Ideal S1x128 .f32) (p : Fin 1) (q : Fin 128) :
    (k0_pay61 (k0_pay57 (k0_pay6 x0) (k0_pay7 x0)) (k0_pay60 (iota Kind.tc S1x128 32 [1] iota_S1x128_d1_w32)) acc) (ix2 p q) = acc (ix2 p q) + hotw (BitVec.ofNat 32 q.val) 7#32 * cntTot x0 7#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold cntTot hotw kbin wgt
  rfl

theorem cnt_l8 (x0 : Vec Ideal S4096x128 .f32) (acc : Vec Ideal S1x128 .f32) (p : Fin 1) (q : Fin 128) :
    (k0_pay69 (iota Kind.tc S1x128 32 [1] iota_S1x128_d1_w32) (k0_pay65 (k0_pay6 x0) (k0_pay7 x0)) acc) (ix2 p q) = acc (ix2 p q) + hotw (BitVec.ofNat 32 q.val) 8#32 * cntTot x0 8#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold cntTot hotw kbin wgt
  rfl

theorem cnt_l9 (x0 : Vec Ideal S4096x128 .f32) (acc : Vec Ideal S1x128 .f32) (p : Fin 1) (q : Fin 128) :
    (k0_pay76 (iota Kind.tc S1x128 32 [1] iota_S1x128_d1_w32) (k0_pay73 (k0_pay6 x0) (k0_pay7 x0)) acc) (ix2 p q) = acc (ix2 p q) + hotw (BitVec.ofNat 32 q.val) 9#32 * cntTot x0 9#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold cntTot hotw kbin wgt
  rfl

/-- The whole step at lane `q`: the ten additions in order. -/
theorem cntStep_apply (x0 : Vec Ideal S4096x128 .f32) (acc : Vec Ideal S1x128 .f32) (p : Fin 1) (q : Fin 128) :
    cntStep x0 acc (ix2 p q) = ((((((((((acc (ix2 p q) + hotw (BitVec.ofNat 32 q.val) 0#32 * cntTot x0 0#32) + hotw (BitVec.ofNat 32 q.val) 1#32 * cntTot x0 1#32) + hotw (BitVec.ofNat 32 q.val) 2#32 * cntTot x0 2#32) + hotw (BitVec.ofNat 32 q.val) 3#32 * cntTot x0 3#32) + hotw (BitVec.ofNat 32 q.val) 4#32 * cntTot x0 4#32) + hotw (BitVec.ofNat 32 q.val) 5#32 * cntTot x0 5#32) + hotw (BitVec.ofNat 32 q.val) 6#32 * cntTot x0 6#32) + hotw (BitVec.ofNat 32 q.val) 7#32 * cntTot x0 7#32) + hotw (BitVec.ofNat 32 q.val) 8#32 * cntTot x0 8#32) + hotw (BitVec.ofNat 32 q.val) 9#32 * cntTot x0 9#32) := by
  unfold cntStep
  rw [cnt_l9, cnt_l8, cnt_l7, cnt_l6, cnt_l5, cnt_l4, cnt_l3, cnt_l2, cnt_l1, cnt_l0]

/-- At a lane below ten the step adds the lane's own bin total. -/
theorem cntStep_lane (x0 : Vec Ideal S4096x128 .f32) (acc : Vec Ideal S1x128 .f32) (p : Fin 1) (q : Fin 128)
    (hq : q.val < 10) :
    cntStep x0 acc (ix2 p q) = acc (ix2 p q) + cntTot x0 (BitVec.ofNat 32 q.val) := by
  have hq32 : q.val < 2 ^ 32 := by omega
  rw [cntStep_apply, hotw_ofNat q.val 0 hq32 (by norm_num), hotw_ofNat q.val 1 hq32 (by norm_num), hotw_ofNat q.val 2 hq32 (by norm_num), hotw_ofNat q.val 3 hq32 (by norm_num), hotw_ofNat q.val 4 hq32 (by norm_num), hotw_ofNat q.val 5 hq32 (by norm_num), hotw_ofNat q.val 6 hq32 (by norm_num), hotw_ofNat q.val 7 hq32 (by norm_num), hotw_ofNat q.val 8 hq32 (by norm_num), hotw_ofNat q.val 9 hq32 (by norm_num)]
  exact fold10 (acc (ix2 p q)) (fun k => cntTot x0 (BitVec.ofNat 32 k)) q.val hq

end Cert.Hist

end
-- ==== Proof.LevelsConf.lean ====
/-
  One grid point's work on the confidence sums, read at a lane. Each of the ten additions, at the ideal values and at lane
  `q`, adds the indicator of `q = k` times the block's total for bin `k`; so at a lane below ten the whole step
  adds that lane's own bin total.
-/
import proofs.«179092_j17343077941754_2_alg».proof.Proof.Gen.KernelIdeal.Skeleton
import Idealize.ShloMosaic.Lib.Pipeline.Value
import Idealize.ShloMosaic.Lib.ValueIdx
import proofs.«179092_j17343077941754_2_alg».proof.Proof.Lanes
import proofs.«179092_j17343077941754_2_alg».proof.Proof.Elem
import proofs.«179092_j17343077941754_2_alg».proof.Proof.Chains
import proofs.«179092_j17343077941754_2_alg».proof.Proof.Bins

noncomputable section

namespace Cert.Hist

open Idealize.ShloMosaic Idealize.ShloMosaic.ValueIdx Cert.KernelIdeal Cert.KernelIdeal.Gen

theorem conf_l0 (x0 : Vec Ideal S4096x128 .f32) (acc : Vec Ideal S1x128 .f32) (p : Fin 1) (q : Fin 128) :
    (k0_pay14 (iota Kind.tc S1x128 32 [1] iota_S1x128_d1_w32) (k0_pay10 x0) acc) (ix2 p q) = acc (ix2 p q) + hotw (BitVec.ofNat 32 q.val) 0#32 * confTot x0 0#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold confTot hotw kbin wgt
  rfl

theorem conf_l1 (x0 : Vec Ideal S4096x128 .f32) (acc : Vec Ideal S1x128 .f32) (p : Fin 1) (q : Fin 128) :
    (k0_pay21 (iota Kind.tc S1x128 32 [1] iota_S1x128_d1_w32) (k0_pay18 (k0_pay4 x0) (k0_pay6 x0) (k0_pay7 x0)) acc) (ix2 p q) = acc (ix2 p q) + hotw (BitVec.ofNat 32 q.val) 1#32 * confTot x0 1#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold confTot hotw kbin wgt
  rfl

theorem conf_l2 (x0 : Vec Ideal S4096x128 .f32) (acc : Vec Ideal S1x128 .f32) (p : Fin 1) (q : Fin 128) :
    (k0_pay26 (k0_pay4 x0) (iota Kind.tc S1x128 32 [1] iota_S1x128_d1_w32) (k0_pay23 (k0_pay6 x0) (k0_pay7 x0)) acc) (ix2 p q) = acc (ix2 p q) + hotw (BitVec.ofNat 32 q.val) 2#32 * confTot x0 2#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold confTot hotw kbin wgt
  rfl

theorem conf_l3 (x0 : Vec Ideal S4096x128 .f32) (acc : Vec Ideal S1x128 .f32) (p : Fin 1) (q : Fin 128) :
    (k0_pay31 (k0_pay4 x0) (k0_pay6 x0) (k0_pay7 x0) (iota Kind.tc S1x128 32 [1] iota_S1x128_d1_w32) acc) (ix2 p q) = acc (ix2 p q) + hotw (BitVec.ofNat 32 q.val) 3#32 * confTot x0 3#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold confTot hotw kbin wgt
  rfl

theorem conf_l4 (x0 : Vec Ideal S4096x128 .f32) (acc : Vec Ideal S1x128 .f32) (p : Fin 1) (q : Fin 128) :
    (k0_pay39 (k0_pay38 (k0_pay4 x0) (k0_pay6 x0) (k0_pay7 x0) (iota Kind.tc S1x128 32 [1] iota_S1x128_d1_w32) acc)) (ix2 p q) = acc (ix2 p q) + hotw (BitVec.ofNat 32 q.val) 4#32 * confTot x0 4#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold confTot hotw kbin wgt
  rfl

theorem conf_l5 (x0 : Vec Ideal S4096x128 .f32) (acc : Vec Ideal S1x128 .f32) (p : Fin 1) (q : Fin 128) :
    (k0_pay46 (k0_pay42 (k0_pay4 x0) (k0_pay6 x0) (k0_pay7 x0)) (k0_pay44 (iota Kind.tc S1x128 32 [1] iota_S1x128_d1_w32)) acc) (ix2 p q) = acc (ix2 p q) + hotw (BitVec.ofNat 32 q.val) 5#32 * confTot x0 5#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold confTot hotw kbin wgt
  rfl

theorem conf_l6 (x0 : Vec Ideal S4096x128 .f32) (acc : Vec Ideal S1x128 .f32) (p : Fin 1) (q : Fin 128) :
    (k0_pay54 (k0_pay49 (k0_pay4 x0) (k0_pay6 x0) (k0_pay7 x0)) (k0_pay51 (iota Kind.tc S1x128 32 [1] iota_S1x128_d1_w32)) acc) (ix2 p q) = acc (ix2 p q) + hotw (BitVec.ofNat 32 q.val) 6#32 * confTot x0 6#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold confTot hotw kbin wgt
  rfl

theorem conf_l7 (x0 : Vec Ideal S4096x128 .f32) (acc : Vec Ideal S1x128 .f32) (p : Fin 1) (q : Fin 128) :
    (k0_pay62 (k0_pay58 (k0_pay4 x0) (k0_pay6 x0) (k0_pay7 x0)) (k0_pay60 (iota Kind.tc S1x128 32 [1] iota_S1x128_d1_w32)) acc) (ix2 p q) = acc (ix2 p q) + hotw (BitVec.ofNat 32 q.val) 7#32 * confTot x0 7#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold confTot hotw kbin wgt
  rfl

theorem conf_l8 (x0 : Vec Ideal S4096x128 .f32) (acc : Vec Ideal S1x128 .f32) (p : Fin 1) (q : Fin 128) :
    (k0_pay70 (iota Kind.tc S1x128 32 [1] iota_S1x128_d1_w32) (k0_pay66 (k0_pay4 x0) (k0_pay6 x0) (k0_pay7 x0)) acc) (ix2 p q) = acc (ix2 p q) + hotw (BitVec.ofNat 32 q.val) 8#32 * confTot x0 8#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold confTot hotw kbin wgt
  rfl

theorem conf_l9 (x0 : Vec Ideal S4096x128 .f32) (acc : Vec Ideal S1x128 .f32) (p : Fin 1) (q : Fin 128) :
    (k0_pay77 (iota Kind.tc S1x128 32 [1] iota_S1x128_d1_w32) (k0_pay74 (k0_pay4 x0) (k0_pay6 x0) (k0_pay7 x0)) acc) (ix2 p q) = acc (ix2 p q) + hotw (BitVec.ofNat 32 q.val) 9#32 * confTot x0 9#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold confTot hotw kbin wgt
  rfl

/-- The whole step at lane `q`: the ten additions in order. -/
theorem confStep_apply (x0 : Vec Ideal S4096x128 .f32) (acc : Vec Ideal S1x128 .f32) (p : Fin 1) (q : Fin 128) :
    confStep x0 acc (ix2 p q) = ((((((((((acc (ix2 p q) + hotw (BitVec.ofNat 32 q.val) 0#32 * confTot x0 0#32) + hotw (BitVec.ofNat 32 q.val) 1#32 * confTot x0 1#32) + hotw (BitVec.ofNat 32 q.val) 2#32 * confTot x0 2#32) + hotw (BitVec.ofNat 32 q.val) 3#32 * confTot x0 3#32) + hotw (BitVec.ofNat 32 q.val) 4#32 * confTot x0 4#32) + hotw (BitVec.ofNat 32 q.val) 5#32 * confTot x0 5#32) + hotw (BitVec.ofNat 32 q.val) 6#32 * confTot x0 6#32) + hotw (BitVec.ofNat 32 q.val) 7#32 * confTot x0 7#32) + hotw (BitVec.ofNat 32 q.val) 8#32 * confTot x0 8#32) + hotw (BitVec.ofNat 32 q.val) 9#32 * confTot x0 9#32) := by
  unfold confStep
  rw [conf_l9, conf_l8, conf_l7, conf_l6, conf_l5, conf_l4, conf_l3, conf_l2, conf_l1, conf_l0]

/-- At a lane below ten the step adds the lane's own bin total. -/
theorem confStep_lane (x0 : Vec Ideal S4096x128 .f32) (acc : Vec Ideal S1x128 .f32) (p : Fin 1) (q : Fin 128)
    (hq : q.val < 10) :
    confStep x0 acc (ix2 p q) = acc (ix2 p q) + confTot x0 (BitVec.ofNat 32 q.val) := by
  have hq32 : q.val < 2 ^ 32 := by omega
  rw [confStep_apply, hotw_ofNat q.val 0 hq32 (by norm_num), hotw_ofNat q.val 1 hq32 (by norm_num), hotw_ofNat q.val 2 hq32 (by norm_num), hotw_ofNat q.val 3 hq32 (by norm_num), hotw_ofNat q.val 4 hq32 (by norm_num), hotw_ofNat q.val 5 hq32 (by norm_num), hotw_ofNat q.val 6 hq32 (by norm_num), hotw_ofNat q.val 7 hq32 (by norm_num), hotw_ofNat q.val 8 hq32 (by norm_num), hotw_ofNat q.val 9 hq32 (by norm_num)]
  exact fold10 (acc (ix2 p q)) (fun k => confTot x0 (BitVec.ofNat 32 k)) q.val hq

end Cert.Hist

end
-- ==== Proof.LevelsLab.lean ====
/-
  One grid point's work on the label sums, read at a lane. Each of the ten additions, at the ideal values and at lane
  `q`, adds the indicator of `q = k` times the block's total for bin `k`; so at a lane below ten the whole step
  adds that lane's own bin total.
-/
import proofs.«179092_j17343077941754_2_alg».proof.Proof.Gen.KernelIdeal.Skeleton
import Idealize.ShloMosaic.Lib.Pipeline.Value
import Idealize.ShloMosaic.Lib.ValueIdx
import proofs.«179092_j17343077941754_2_alg».proof.Proof.Lanes
import proofs.«179092_j17343077941754_2_alg».proof.Proof.Elem
import proofs.«179092_j17343077941754_2_alg».proof.Proof.Chains
import proofs.«179092_j17343077941754_2_alg».proof.Proof.Bins

noncomputable section

namespace Cert.Hist

open Idealize.ShloMosaic Idealize.ShloMosaic.ValueIdx Cert.KernelIdeal Cert.KernelIdeal.Gen

theorem lab_l0 (x0 : Vec Ideal S4096x128 .f32) (x1 : Vec Ideal S4096x128 .i32) (acc : Vec Ideal S1x128 .f32) (p : Fin 1) (q : Fin 128) :
    (k0_pay15 (iota Kind.tc S1x128 32 [1] iota_S1x128_d1_w32) (k0_pay11 x0 x1) acc) (ix2 p q) = acc (ix2 p q) + hotw (BitVec.ofNat 32 q.val) 0#32 * labTot x0 x1 0#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold labTot hotw kbin wgt
  rfl

theorem lab_l1 (x0 : Vec Ideal S4096x128 .f32) (x1 : Vec Ideal S4096x128 .i32) (acc : Vec Ideal S1x128 .f32) (p : Fin 1) (q : Fin 128) :
    (k0_pay22 (k0_pay5 x1) (iota Kind.tc S1x128 32 [1] iota_S1x128_d1_w32) (k0_pay16 (k0_pay6 x0) (k0_pay7 x0)) acc) (ix2 p q) = acc (ix2 p q) + hotw (BitVec.ofNat 32 q.val) 1#32 * labTot x0 x1 1#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold labTot hotw kbin wgt
  rfl

theorem lab_l2 (x0 : Vec Ideal S4096x128 .f32) (x1 : Vec Ideal S4096x128 .i32) (acc : Vec Ideal S1x128 .f32) (p : Fin 1) (q : Fin 128) :
    (k0_pay27 (k0_pay5 x1) (iota Kind.tc S1x128 32 [1] iota_S1x128_d1_w32) (k0_pay23 (k0_pay6 x0) (k0_pay7 x0)) acc) (ix2 p q) = acc (ix2 p q) + hotw (BitVec.ofNat 32 q.val) 2#32 * labTot x0 x1 2#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold labTot hotw kbin wgt
  rfl

theorem lab_l3 (x0 : Vec Ideal S4096x128 .f32) (x1 : Vec Ideal S4096x128 .i32) (acc : Vec Ideal S1x128 .f32) (p : Fin 1) (q : Fin 128) :
    (k0_pay33 (k0_pay29 (iota Kind.tc S1x128 32 [1] iota_S1x128_d1_w32)) acc (k0_pay32 (k0_pay5 x1) (k0_pay6 x0) (k0_pay7 x0))) (ix2 p q) = acc (ix2 p q) + hotw (BitVec.ofNat 32 q.val) 3#32 * labTot x0 x1 3#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold labTot hotw kbin wgt
  rfl

theorem lab_l4 (x0 : Vec Ideal S4096x128 .f32) (x1 : Vec Ideal S4096x128 .i32) (acc : Vec Ideal S1x128 .f32) (p : Fin 1) (q : Fin 128) :
    (k0_pay40 (k0_pay35 (k0_pay5 x1) (k0_pay6 x0) (k0_pay7 x0)) (k0_pay36 (iota Kind.tc S1x128 32 [1] iota_S1x128_d1_w32)) acc) (ix2 p q) = acc (ix2 p q) + hotw (BitVec.ofNat 32 q.val) 4#32 * labTot x0 x1 4#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold labTot hotw kbin wgt
  rfl

theorem lab_l5 (x0 : Vec Ideal S4096x128 .f32) (x1 : Vec Ideal S4096x128 .i32) (acc : Vec Ideal S1x128 .f32) (p : Fin 1) (q : Fin 128) :
    (k0_pay47 (k0_pay43 (k0_pay5 x1) (k0_pay6 x0) (k0_pay7 x0)) (k0_pay44 (iota Kind.tc S1x128 32 [1] iota_S1x128_d1_w32)) acc) (ix2 p q) = acc (ix2 p q) + hotw (BitVec.ofNat 32 q.val) 5#32 * labTot x0 x1 5#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold labTot hotw kbin wgt
  rfl

theorem lab_l6 (x0 : Vec Ideal S4096x128 .f32) (x1 : Vec Ideal S4096x128 .i32) (acc : Vec Ideal S1x128 .f32) (p : Fin 1) (q : Fin 128) :
    (k0_pay55 (k0_pay50 (k0_pay5 x1) (k0_pay6 x0) (k0_pay7 x0)) (k0_pay51 (iota Kind.tc S1x128 32 [1] iota_S1x128_d1_w32)) acc) (ix2 p q) = acc (ix2 p q) + hotw (BitVec.ofNat 32 q.val) 6#32 * labTot x0 x1 6#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold labTot hotw kbin wgt
  rfl

theorem lab_l7 (x0 : Vec Ideal S4096x128 .f32) (x1 : Vec Ideal S4096x128 .i32) (acc : Vec Ideal S1x128 .f32) (p : Fin 1) (q : Fin 128) :
    (k0_pay63 (k0_pay59 (k0_pay5 x1) (k0_pay6 x0) (k0_pay7 x0)) (k0_pay60 (iota Kind.tc S1x128 32 [1] iota_S1x128_d1_w32)) acc) (ix2 p q) = acc (ix2 p q) + hotw (BitVec.ofNat 32 q.val) 7#32 * labTot x0 x1 7#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold labTot hotw kbin wgt
  rfl

theorem lab_l8 (x0 : Vec Ideal S4096x128 .f32) (x1 : Vec Ideal S4096x128 .i32) (acc : Vec Ideal S1x128 .f32) (p : Fin 1) (q : Fin 128) :
    (k0_pay71 (iota Kind.tc S1x128 32 [1] iota_S1x128_d1_w32) (k0_pay67 (k0_pay5 x1) (k0_pay6 x0) (k0_pay7 x0)) acc) (ix2 p q) = acc (ix2 p q) + hotw (BitVec.ofNat 32 q.val) 8#32 * labTot x0 x1 8#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold labTot hotw kbin wgt
  rfl

theorem lab_l9 (x0 : Vec Ideal S4096x128 .f32) (x1 : Vec Ideal S4096x128 .i32) (acc : Vec Ideal S1x128 .f32) (p : Fin 1) (q : Fin 128) :
    (k0_pay78 (k0_pay5 x1) (iota Kind.tc S1x128 32 [1] iota_S1x128_d1_w32) (k0_pay72 (k0_pay6 x0) (k0_pay7 x0)) acc) (ix2 p q) = acc (ix2 p q) + hotw (BitVec.ofNat 32 q.val) 9#32 * labTot x0 x1 9#32 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, broadcast_at, mulf_at, addf_at, subf_at, maximumf_at, minimumf_at, cmpf_at, extui_at, sitofp_at,
    cmpi_at, andi_at, fptosi_at, ceil_at, spread_apply]
  rw [iota_lane, total_apply]
  simp only [broadcast_at, mulf_at, subf_at, maximumf_at, minimumf_at, cmpf_at, extui_at, sitofp_at, cmpi_at, andi_at, fptosi_at, ceil_at, shapeCast_self]
  unfold labTot hotw kbin wgt
  rfl

/-- The whole step at lane `q`: the ten additions in order. -/
theorem labStep_apply (x0 : Vec Ideal S4096x128 .f32) (x1 : Vec Ideal S4096x128 .i32) (acc : Vec Ideal S1x128 .f32) (p : Fin 1) (q : Fin 128) :
    labStep x0 x1 acc (ix2 p q) = ((((((((((acc (ix2 p q) + hotw (BitVec.ofNat 32 q.val) 0#32 * labTot x0 x1 0#32) + hotw (BitVec.ofNat 32 q.val) 1#32 * labTot x0 x1 1#32) + hotw (BitVec.ofNat 32 q.val) 2#32 * labTot x0 x1 2#32) + hotw (BitVec.ofNat 32 q.val) 3#32 * labTot x0 x1 3#32) + hotw (BitVec.ofNat 32 q.val) 4#32 * labTot x0 x1 4#32) + hotw (BitVec.ofNat 32 q.val) 5#32 * labTot x0 x1 5#32) + hotw (BitVec.ofNat 32 q.val) 6#32 * labTot x0 x1 6#32) + hotw (BitVec.ofNat 32 q.val) 7#32 * labTot x0 x1 7#32) + hotw (BitVec.ofNat 32 q.val) 8#32 * labTot x0 x1 8#32) + hotw (BitVec.ofNat 32 q.val) 9#32 * labTot x0 x1 9#32) := by
  unfold labStep
  rw [lab_l9, lab_l8, lab_l7, lab_l6, lab_l5, lab_l4, lab_l3, lab_l2, lab_l1, lab_l0]

/-- At a lane below ten the step adds the lane's own bin total. -/
theorem labStep_lane (x0 : Vec Ideal S4096x128 .f32) (x1 : Vec Ideal S4096x128 .i32) (acc : Vec Ideal S1x128 .f32) (p : Fin 1) (q : Fin 128)
    (hq : q.val < 10) :
    labStep x0 x1 acc (ix2 p q) = acc (ix2 p q) + labTot x0 x1 (BitVec.ofNat 32 q.val) := by
  have hq32 : q.val < 2 ^ 32 := by omega
  rw [labStep_apply, hotw_ofNat q.val 0 hq32 (by norm_num), hotw_ofNat q.val 1 hq32 (by norm_num), hotw_ofNat q.val 2 hq32 (by norm_num), hotw_ofNat q.val 3 hq32 (by norm_num), hotw_ofNat q.val 4 hq32 (by norm_num), hotw_ofNat q.val 5 hq32 (by norm_num), hotw_ofNat q.val 6 hq32 (by norm_num), hotw_ofNat q.val 7 hq32 (by norm_num), hotw_ofNat q.val 8 hq32 (by norm_num), hotw_ofNat q.val 9 hq32 (by norm_num)]
  exact fold10 (acc (ix2 p q)) (fun k => labTot x0 x1 (BitVec.ofNat 32 k)) q.val hq

end Cert.Hist

end
-- ==== Proof.Sums.lean ====
/-
  The carried vectors at the ideal values, read at a lane below ten: after point `n` lane `q` of the counts is
  zero plus the sum over the blocks `0 … n` of the block's count for bin `q`; likewise the confidence sums and the
  label sums. (The lanes from ten on stay zero; nothing reads them.)
-/
import proofs.«179092_j17343077941754_2_alg».proof.Proof.Gen.KernelIdeal.Frame
import Idealize.ShloMosaic.Lib.Pipeline.Value
import proofs.«179092_j17343077941754_2_alg».proof.Proof.Accum
import proofs.«179092_j17343077941754_2_alg».proof.Proof.LevelsCnt
import proofs.«179092_j17343077941754_2_alg».proof.Proof.LevelsConf
import proofs.«179092_j17343077941754_2_alg».proof.Proof.LevelsLab

noncomputable section

namespace Cert.Hist

open Idealize.ShloMosaic Idealize.ShloMosaic.TcCoe Idealize.ShloMosaic.ValueIdx Idealize.SL.Sem
open Cert.KernelIdeal Cert.KernelIdeal.Gen

/-- The vectors the first point starts from are zero at every lane. -/
theorem zero1_lane (p : Fin 1) (q : Fin 128) : (k0_pay1 (F := Ideal)) (ix2 p q) = Ideal.ofBits .f32 0x00000000#32 := by
  unfold k0_pay1
  rw [shapeCast_self]
  rfl
theorem zero2_lane (p : Fin 1) (q : Fin 128) : (k0_pay2 (F := Ideal)) (ix2 p q) = Ideal.ofBits .f32 0x00000000#32 := by
  unfold k0_pay2
  rw [shapeCast_self]
  rfl
theorem zero3_lane (p : Fin 1) (q : Fin 128) : (k0_pay3 (F := Ideal)) (ix2 p q) = Ideal.ofBits .f32 0x00000000#32 := by
  unfold k0_pay3
  rw [shapeCast_self]
  rfl

variable (m : (ℓ : Loc nD τ sig) → Buf (Elt Ideal) ℓ)

/-- The counts after point `n`, at a lane below ten: zero plus the bin totals of blocks `0 … n`. -/
theorem carried_cnt (c : Dev nD) (p : Fin 1) (q : Fin 128) (hq : q.val < 10) (n : ℕ) (h : n < cfg0.N) :
    (carried m c n h).1 (ix2 p q)
      = Ideal.ofBits .f32 0x00000000#32
        + ∑ t : Fin (n + 1), cntTot (blk0 m c ⟨t.val, Nat.lt_of_lt_of_le t.isLt h⟩) (BitVec.ofNat 32 q.val) := by
  induction n with
  | zero =>
    rw [carried_zero]
    dsimp only
    rw [cntStep_lane _ _ p q hq, Fin.sum_univ_one, zero1_lane p q]
    rfl
  | succ n ih =>
    rw [carried_succ]
    dsimp only
    rw [cntStep_lane _ _ p q hq, Fin.sum_univ_castSucc, ih (Nat.lt_of_succ_lt h), add_assoc]
    rfl

/-- The confidence sums after point `n`, at a lane below ten: zero plus the bin totals of blocks `0 … n`. -/
theorem carried_conf (c : Dev nD) (p : Fin 1) (q : Fin 128) (hq : q.val < 10) (n : ℕ) (h : n < cfg0.N) :
    (carried m c n h).2.1 (ix2 p q)
      = Ideal.ofBits .f32 0x00000000#32
        + ∑ t : Fin (n + 1), confTot (blk0 m c ⟨t.val, Nat.lt_of_lt_of_le t.isLt h⟩) (BitVec.ofNat 32 q.val) := by
  induction n with
  | zero =>
    rw [carried_zero]
    dsimp only
    rw [confStep_lane _ _ p q hq, Fin.sum_univ_one, zero2_lane p q]
    rfl
  | succ n ih =>
    rw [carried_succ]
    dsimp only
    rw [confStep_lane _ _ p q hq, Fin.sum_univ_castSucc, ih (Nat.lt_of_succ_lt h), add_assoc]
    rfl

/-- The label sums after point `n`, at a lane below ten: zero plus the bin totals of blocks `0 … n`. -/
theorem carried_lab (c : Dev nD) (p : Fin 1) (q : Fin 128) (hq : q.val < 10) (n : ℕ) (h : n < cfg0.N) :
    (carried m c n h).2.2 (ix2 p q)
      = Ideal.ofBits .f32 0x00000000#32
        + ∑ t : Fin (n + 1), labTot (blk0 m c ⟨t.val, Nat.lt_of_lt_of_le t.isLt h⟩) (blk1 m c ⟨t.val, Nat.lt_of_lt_of_le t.isLt h⟩) (BitVec.ofNat 32 q.val) := by
  induction n with
  | zero =>
    rw [carried_zero]
    dsimp only
    rw [labStep_lane _ _ _ p q hq, Fin.sum_univ_one, zero3_lane p q]
    rfl
  | succ n ih =>
    rw [carried_succ]
    dsimp only
    rw [labStep_lane _ _ _ p q hq, Fin.sum_univ_castSucc, ih (Nat.lt_of_succ_lt h), add_assoc]
    rfl

end Cert.Hist

end
-- ==== Proof.BlockRead.lean ====
/-
  What the kernel's two input windows read. Before the region the flat arrays of 2^25 confidences and labels are
  reshaped to 262144 rows of 128; window 0 (and 1) at grid point `t` stages rows `4096 t … 4096 t + 4095`. So entry
  `(r, l)` of the block at point `t` is sample `(4096 t + r) · 128 + l` of the flat array.
-/
import proofs.«179092_j17343077941754_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic
import proofs.«179092_j17343077941754_2_alg».proof.Proof.Elem
import proofs.«179092_j17343077941754_2_alg».proof.Proof.Accum

noncomputable section

namespace Cert.Hist

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The array window 0 stages, as the region finds it: the confidences in rows of 128. -/
theorem V_v0 (c : Dev nD) : (V m c main_v0 : S262144x128.Idx → F .f32)
    = shapeCast S262144x128 (m ((c : Thread nD τ).loc main_arg0)) shapeCasts_S33554432_S262144x128 := by
  show StableHlo.after hostOps0 (fun b => m (c, b)) (Proc.devRef .tc main_v0) = _
  after_results
  rfl

/-- The array window 1 stages: the labels in rows of 128. -/
theorem V_v1 (c : Dev nD) : (V m c main_v1 : S262144x128.Idx → BitVec 32)
    = shapeCast S262144x128 (m ((c : Thread nD τ).loc main_arg1)) shapeCasts_S33554432_S262144x128 := by
  show StableHlo.after hostOps0 (fun b => m (c, b)) (Proc.devRef .tc main_v1) = _
  after_results
  rfl

/-- Entry `(r, l)` of the confidence block at point `t` is sample `(4096 t + r) · 128 + l`. -/
theorem blk0_apply (c : Dev nD) (t : Fin cfg0.N) (ht : t.val < 64) (r : Fin 4096) (l : Fin 128) :
    blk0 m c t (ix2 r l) = m ((c : Thread nD τ).loc main_arg0) (ix1 (flat ⟨t.val, ht⟩ r l)) := by
  have hi : win0_0.index t (0 : Fin 2) = t.val ∧ win0_0.index t (1 : Fin 2) = 0 :=
    (by decide +kernel : ∀ t : Fin grid0.N, win0_0.index t (0 : Fin 2) = t.val ∧ win0_0.index t (1 : Fin 2) = 0) t
  unfold blk0 iblk
  rw [View.read_apply]
  show V m c main_v0 (((cfg0.win 0).blk t).view.emb (ix2 r l)) = _
  rw [V_v0]
  refine shapeCast_apply _ _ _ (ix1 (flat ⟨t.val, ht⟩ r l)) ?_
  rw [Shape.rowMajor_val_one, Shape.rowMajor_val_two]
  show (4096 * t.val + r.val) * 128 + l.val
    = (win0_0.index t (0 : Fin 2) * 4096 + 1 * r.val) * 128 + (win0_0.index t (1 : Fin 2) * 128 + 1 * l.val)
  rw [hi.1, hi.2]
  omega

/-- Entry `(r, l)` of the label block at point `t` is sample `(4096 t + r) · 128 + l`. -/
theorem blk1_apply (c : Dev nD) (t : Fin cfg0.N) (ht : t.val < 64) (r : Fin 4096) (l : Fin 128) :
    blk1 m c t (ix2 r l) = m ((c : Thread nD τ).loc main_arg1) (ix1 (flat ⟨t.val, ht⟩ r l)) := by
  have hi : win0_1.index t (0 : Fin 2) = t.val ∧ win0_1.index t (1 : Fin 2) = 0 :=
    (by decide +kernel : ∀ t : Fin grid0.N, win0_1.index t (0 : Fin 2) = t.val ∧ win0_1.index t (1 : Fin 2) = 0) t
  unfold blk1 iblk
  rw [View.read_apply]
  show V m c main_v1 (((cfg0.win 1).blk t).view.emb (ix2 r l)) = _
  rw [V_v1]
  refine shapeCast_apply _ _ _ (ix1 (flat ⟨t.val, ht⟩ r l)) ?_
  rw [Shape.rowMajor_val_one, Shape.rowMajor_val_two]
  show (4096 * t.val + r.val) * 128 + l.val
    = (win0_1.index t (0 : Fin 2) * 4096 + 1 * r.val) * 128 + (win0_1.index t (1 : Fin 2) * 128 + 1 * l.val)
  rw [hi.1, hi.2]
  omega

end Cert.Hist

end
-- ==== Proof.RefTerms.lean ====
/-
  The reference, in three parts. Its bin of a sample: ten times the confidence, rounded up, converted to an integer,
  less one, kept between 0 and 9. Its weight of a sample: 1 when the confidence is in (0, 1], else 0. Its three sums
  per bin — of the weights, of confidence times weight, of label times weight — each an accumulating scatter into ten
  zeros. And the last stage, the same in both programs: from the three ten-entry arrays, the sum over the non-empty
  bins of |mean confidence - mean label| times the bin's share of the 2^25 samples.
-/
import proofs.«179092_j17343077941754_2_alg».proof.Proof.Gen.ReferenceIdeal
import Idealize.ShloMosaic.PureOps.Ideal

noncomputable section

namespace Cert.Hist

open Idealize.ShloMosaic Cert.ReferenceIdeal Cert.ReferenceIdeal.Gen

/-- The reference's bin of every sample, as the column of start indices of its scatters. -/
def refIdx (x0 : FVec Ideal S33554432 .f32) : IVec S33554432x1 32 :=
  (broadcastInDim S33554432x1 ![0] bcast_S33554432_S33554432x1_0 (minsi (broadcastInDim S33554432 ![] bcast_S_S33554432 (id (constantI S_ 32 9#32))) (maxsi (broadcastInDim S33554432 ![] bcast_S_S33554432 (id (constantI S_ 32 0#32))) (subi (fptosi 32 (Host.ceil (F := Ideal) (mulf x0 (broadcastInDim S33554432 ![] bcast_S_S33554432 (constant (F := Ideal) S_ .f32 0x41200000#32))))) (broadcastInDim S33554432 ![] bcast_S_S33554432 (constantI S_ 32 1#32))))))

/-- The reference's weight of every sample. -/
def refW (x0 : FVec Ideal S33554432 .f32) : FVec Ideal S33554432 .f32 :=
  (uitofp (F := Ideal) .f32 (andi (cmpf (F := Ideal) .ogt x0 (broadcastInDim S33554432 ![] bcast_S_S33554432 (constant (F := Ideal) S_ .f32 0x00000000#32))) (cmpf (F := Ideal) .ole x0 (broadcastInDim S33554432 ![] bcast_S_S33554432 (constant (F := Ideal) S_ .f32 0x3F800000#32)))))

/-- Ten zeros. -/
def zeros10 : FVec Ideal S10 .f32 := broadcastInDim S10 ![] bcast_S_S10 (constant (F := Ideal) S_ .f32 0x00000000#32)

/-- Per bin, the number of valid samples. -/
def refCnt (x0 : FVec Ideal S33554432 .f32) : FVec Ideal S10 .f32 :=
  Host.scatterAdd (F := Ideal) scatter_S10_S33554432x1_S33554432_n_0_0_1 zeros10 (refIdx x0) (refW x0)

/-- Per bin, the sum of the valid samples' confidences. -/
def refConf (x0 : FVec Ideal S33554432 .f32) : FVec Ideal S10 .f32 :=
  Host.scatterAdd (F := Ideal) scatter_S10_S33554432x1_S33554432_n_0_0_1 zeros10 (refIdx x0) (mulf x0 (refW x0))

/-- Per bin, the sum of the valid samples' labels. -/
def refLab (x0 : FVec Ideal S33554432 .f32) (x1 : IVec S33554432 32) : FVec Ideal S10 .f32 :=
  Host.scatterAdd (F := Ideal) scatter_S10_S33554432x1_S33554432_n_0_0_1 zeros10 (refIdx x0) (mulf (sitofp (F := Ideal) .f32 x1) (refW x0))

/-- The last stage: the calibration error from the three per-bin arrays. -/
def tail (cnt conf lab : FVec Ideal S10 .f32) : FVec Ideal S1 .f32 :=
  shapeCast S1 (Host.reduceAdd (F := Ideal) (select (cmpf (F := Ideal) .ogt cnt (broadcastInDim S10 ![] bcast_S_S10 (constant (F := Ideal) S_ .f32 0x00000000#32))) (mulf (Host.absf (F := Ideal) (subf (Host.divf (F := Ideal) conf (maximumf cnt (broadcastInDim S10 ![] bcast_S_S10 (constant (F := Ideal) S_ .f32 0x3F800000#32)))) (Host.divf (F := Ideal) lab (maximumf cnt (broadcastInDim S10 ![] bcast_S_S10 (constant (F := Ideal) S_ .f32 0x3F800000#32)))))) (Host.divf (F := Ideal) cnt (broadcastInDim S10 ![] bcast_S_S10 (constant (F := Ideal) S_ .f32 0x4C000000#32)))) (broadcastInDim S10 ![] bcast_S_S10 (id (constant (F := Ideal) S_ .f32 0x00000000#32)))) (constant (F := Ideal) S_ .f32 0x00000000#32) reducesTo_S10_S_d0 h_S_) shapeCasts_S_S1

end Cert.Hist

end
-- ==== Proof.LibScatterRead.lean ====
/-
  An accumulating scatter (each update added onto the operand element its start index names, an update
  whose start index names no element dropped) and a gather (each result element the operand element its
  start index names, the start index clamped into range), read at an index, for the dimension numbers of
  an edge list scattered into, or gathered from, an array of nodes: one start index per edge, or a pair.
-/
import Idealize.ShloMosaic.Lib.ValueIdx

open scoped BigOperators

namespace Cert.LibScatterRead

open Idealize.ShloMosaic Idealize.ShloMosaic.ValueIdx

/-! ## Generalities -/

/-- An update lands on operand index `i` exactly when, on every axis, its start (read signed, not
    clamped) plus its window coordinate is `i`'s coordinate: a sum that leaves `[0, size)` on some axis
    drops the update, and no coordinate of `i` is outside that range. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hi a
      have := congrArg (fun f => (f a).val) hi
      simp only at this
      have := h a
      omega
    · intro hi
      funext a
      refine Fin.ext ?_
      have := hi a
      show (d.start j idx a + (d.window j a : ℤ)).toNat = (i a).val
      omega
  · rename_i h
    constructor
    · intro hi; cases hi
    · intro hi
      exfalso
      refine h fun a => ?_
      have := hi a
      have := (i a).isLt
      omega

/-- Rank-1 indices are the coordinates. -/
def ix1Equiv (n : Nat) : Fin n ≃ (⟨1, ![n]⟩ : Shape).Idx where
  toFun := ix1
  invFun j := j 0
  left_inv _ := rfl
  right_inv j := (eq_ix1 j).symm

/-- Indices of an `[n, 1]` array are the first coordinates. -/
def ix2Equiv1 (n : Nat) : Fin n ≃ (⟨2, ![n, 1]⟩ : Shape).Idx where
  toFun e := ix2 e 0
  invFun j := j 0
  left_inv _ := rfl
  right_inv j := by
    funext a
    refine Fin.ext ?_
    match a with
    | ⟨0, _⟩ => rfl
    | ⟨1, _⟩ =>
      show (0 : ℕ) = (j 1).val
      have := idx2_lt1 j
      omega

/-- A sum over the members of a finite type that satisfy `P`, carried along a bijection. -/
theorem sum_filter_equiv {α β M : Type*} [Fintype α] [Fintype β] [AddCommMonoid M] (σ : α ≃ β)
    (P : β → Prop) [DecidablePred P] (f : β → M) :
    ∑ b ∈ Finset.univ.filter P, f b = ∑ a ∈ Finset.univ.filter (fun a => P (σ a)), f (σ a) := by
  rw [Finset.sum_filter, Finset.sum_filter, ← Equiv.sum_comp σ]

/-! ## One start index per edge, into a rank-1 array of nodes -/

section Scatter1
variable {N E w : Nat} (wf : ScatterDims.WF ⟨1, ![N]⟩ ⟨2, ![E, 1]⟩ ⟨1, ![E]⟩ [] [0] [0] 1)

/-- `x.at[idx].add(upd)` for `x : [N]`, `idx : [E, 1]`, `upd : [E]`: no window axes, the operand's one
    axis inserted and named by the start index's one component. -/
abbrev scatter1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Edge `e`'s start on the node axis is `idx[e, 0]` read signed. -/
theorem scatter1_start (e : Fin E) (idx : IVec ⟨2, ![E, 1]⟩ w) :
    (scatter1Dims N E wf).start (ix1 e) idx 0 = (idx (ix2 e 0)).toInt := by
  unfold ScatterDims.start
  rw [dif_pos (show (0 : Fin 1) ∈ (scatter1Dims N E wf).scatterDimsToOperandDims from List.mem_singleton.mpr rfl)]
  have hsi : (scatter1Dims N E wf).siIdx (ix1 e) ⟨List.idxOf (0 : Fin 1) (scatter1Dims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- There is no window: the window coordinate on the node axis is `0`. -/
theorem scatter1_window (j : (⟨1, ![E]⟩ : Shape).Idx) : (scatter1Dims N E wf).window j 0 = 0 := by
  unfold ScatterDims.window
  have hk : (0 : Fin 1) ∉ (scatter1Dims N E wf).sKept := by
    show (0 : Fin 1) ∉ ([] : List (Fin 1))
    exact List.not_mem_nil
  rw [dif_neg hk]

/-- Edge `e` lands on node `i` exactly when `idx[e, 0]`, read signed, is `i`. -/
theorem scatter1_resultIdx?_iff (e : Fin E) (i : Fin N) (idx : IVec ⟨2, ![E, 1]⟩ w) :
    (scatter1Dims N E wf).resultIdx? (ix1 e) idx = some (ix1 i) ↔ (idx (ix2 e 0)).toInt = (i.val : ℤ) := by
  rw [resultIdx?_eq_some_iff]
  constructor
  · intro h
    have := h 0
    rw [scatter1_start, scatter1_window, Nat.cast_zero, add_zero] at this
    exact this
  · intro h a
    obtain rfl : a = 0 := Subsingleton.elim _ _
    rw [scatter1_start, scatter1_window, Nat.cast_zero, add_zero]
    exact h

/-- THE SCATTER-ADD READ AT NODE `i`: the operand there plus the updates of the edges whose start index is `i`. -/
theorem scatterAdd1_apply {φ : FTy} (x : FVec Ideal ⟨1, ![N]⟩ φ) (idx : IVec ⟨2, ![E, 1]⟩ w)
    (upd : FVec Ideal ⟨1, ![E]⟩ φ) (i : Fin N) :
    Host.scatterAdd (F := Ideal) (scatter1Dims N E wf) x idx upd (ix1 i)
      = x (ix1 i) + ∑ e ∈ Finset.univ.filter (fun e : Fin E => (idx (ix2 e 0)).toInt = (i.val : ℤ)), upd (ix1 e) := by
  unfold Host.scatterAdd
  rw [Ideal.hostScatterAdd_def]
  unfold Ideal.hostScatterAdd
  congr 1
  rw [sum_filter_equiv (ix1Equiv E)]
  exact Finset.sum_congr (Finset.filter_congr fun e _ => scatter1_resultIdx?_iff wf e i idx) fun _ _ => rfl

/-- The same read when the start indices are known to name nodes: `col e` is edge `e`'s node. -/
theorem scatterAdd1_apply_of_nodes {φ : FTy} (x : FVec Ideal ⟨1, ![N]⟩ φ) (idx : IVec ⟨2, ![E, 1]⟩ w)
    (upd : FVec Ideal ⟨1, ![E]⟩ φ) (col : Fin E → Fin N)
    (hcol : ∀ e, (idx (ix2 e 0)).toInt = ((col e).val : ℤ)) (i : Fin N) :
    Host.scatterAdd (F := Ideal) (scatter1Dims N E wf) x idx upd (ix1 i)
      = x (ix1 i) + ∑ e ∈ Finset.univ.filter (fun e : Fin E => col e = i), upd (ix1 e) := by
  rw [scatterAdd1_apply]
  congr 1
  refine Finset.sum_congr (Finset.filter_congr fun e _ => ?_) fun _ _ => rfl
  rw [hcol e, Nat.cast_inj, Fin.val_inj]

end Scatter1

/-! ## One start index per edge, into an `[N, 1]` array of nodes: a window axis of size 1 -/

section Scatter1Col
variable {N E w : Nat} (wf : ScatterDims.WF ⟨2, ![N, 1]⟩ ⟨2, ![E, 1]⟩ ⟨2, ![E, 1]⟩ [1] [0] [0] 1)

/-- `x.at[idx].add(upd)` for `x : [N, 1]`, `idx : [E, 1]`, `upd : [E, 1]`: the updates' trailing axis is a
    window over the operand's trailing axis, the operand's leading axis inserted and named by the start
    index's one component. -/
abbrev scatter1ColDims (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-- Edge `e`'s start on the node axis is `idx[e, 0]` read signed. -/
theorem scatter1Col_start0 (e : Fin E) (idx : IVec ⟨2, ![E, 1]⟩ w) :
    (scatter1ColDims N E wf).start (ix2 e 0) idx 0 = (idx (ix2 e 0)).toInt := by
  unfold ScatterDims.start
  rw [dif_pos (show (0 : Fin 2) ∈ (scatter1ColDims N E wf).scatterDimsToOperandDims from List.mem_singleton.mpr rfl)]
  have hsi : (scatter1ColDims N E wf).siIdx (ix2 e 0) ⟨List.idxOf (0 : Fin 2) (scatter1ColDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The start index names no position on the trailing axis: the start there is `0`. -/
theorem scatter1Col_start1 (j : (⟨2, ![E, 1]⟩ : Shape).Idx) (idx : IVec ⟨2, ![E, 1]⟩ w) :
    (scatter1ColDims N E wf).start j idx 1 = 0 := by
  unfold ScatterDims.start
  have h : (1 : Fin 2) ∉ (scatter1ColDims N E wf).scatterDimsToOperandDims := by
    show (1 : Fin 2) ∉ ([0] : List (Fin 2))
    decide
  rw [dif_neg h]

/-- The node axis is inserted: the window coordinate there is `0`. -/
theorem scatter1Col_window0 (j : (⟨2, ![E, 1]⟩ : Shape).Idx) : (scatter1ColDims N E wf).window j 0 = 0 := by
  unfold ScatterDims.window
  have hk : (0 : Fin 2) ∉ (scatter1ColDims N E wf).sKept := by
    show (0 : Fin 2) ∉ ([1] : List (Fin 2))
    decide
  rw [dif_neg hk]

/-- The window coordinate on the trailing axis is the update's trailing coordinate, `0`. -/
theorem scatter1Col_window1 (e : Fin E) : (scatter1ColDims N E wf).window (ix2 e 0) 1 = 0 := by
  unfold ScatterDims.window
  have hk : (1 : Fin 2) ∈ (scatter1ColDims N E wf).sKept := by
    show (1 : Fin 2) ∈ ([1] : List (Fin 2))
    decide
  rw [dif_pos hk]
  rfl

/-- Update `(e, 0)` lands on `(i, 0)` exactly when `idx[e, 0]`, read signed, is `i`. -/
theorem scatter1Col_resultIdx?_iff (e : Fin E) (i : Fin N) (idx : IVec ⟨2, ![E, 1]⟩ w) :
    (scatter1ColDims N E wf).resultIdx? (ix2 e 0) idx = some (ix2 i 0) ↔ (idx (ix2 e 0)).toInt = (i.val : ℤ) := by
  rw [resultIdx?_eq_some_iff]
  constructor
  · intro h
    have := h 0
    rw [scatter1Col_start0, scatter1Col_window0, Nat.cast_zero, add_zero] at this
    exact this
  · intro h a
    match a with
    | ⟨0, _⟩ =>
      show (scatter1ColDims N E wf).start (ix2 e 0) idx 0 + ((scatter1ColDims N E wf).window (ix2 e 0) 0 : ℤ) = (i.val : ℤ)
      rw [scatter1Col_start0, scatter1Col_window0, Nat.cast_zero, add_zero]
      exact h
    | ⟨1, _⟩ =>
      show (scatter1ColDims N E wf).start (ix2 e 0) idx 1 + ((scatter1ColDims N E wf).window (ix2 e 0) 1 : ℤ) = ((0 : ℕ) : ℤ)
      rw [scatter1Col_start1, scatter1Col_window1, Nat.cast_zero, add_zero]

/-- THE SCATTER-ADD READ AT `(i, 0)`: the operand there plus the updates `(e, 0)` of the edges whose start index is `i`. -/
theorem scatterAdd1Col_apply {φ : FTy} (x : FVec Ideal ⟨2, ![N, 1]⟩ φ) (idx : IVec ⟨2, ![E, 1]⟩ w)
    (upd : FVec Ideal ⟨2, ![E, 1]⟩ φ) (i : Fin N) :
    Host.scatterAdd (F := Ideal) (scatter1ColDims N E wf) x idx upd (ix2 i 0)
      = x (ix2 i 0) + ∑ e ∈ Finset.univ.filter (fun e : Fin E => (idx (ix2 e 0)).toInt = (i.val : ℤ)), upd (ix2 e 0) := by
  unfold Host.scatterAdd
  rw [Ideal.hostScatterAdd_def]
  unfold Ideal.hostScatterAdd
  congr 1
  rw [sum_filter_equiv (ix2Equiv1 E)]
  exact Finset.sum_congr (Finset.filter_congr fun e _ => scatter1Col_resultIdx?_iff wf e i idx) fun _ _ => rfl

/-- The same read when the start indices are known to name nodes: `col e` is edge `e`'s node. -/
theorem scatterAdd1Col_apply_of_nodes {φ : FTy} (x : FVec Ideal ⟨2, ![N, 1]⟩ φ) (idx : IVec ⟨2, ![E, 1]⟩ w)
    (upd : FVec Ideal ⟨2, ![E, 1]⟩ φ) (col : Fin E → Fin N)
    (hcol : ∀ e, (idx (ix2 e 0)).toInt = ((col e).val : ℤ)) (i : Fin N) :
    Host.scatterAdd (F := Ideal) (scatter1ColDims N E wf) x idx upd (ix2 i 0)
      = x (ix2 i 0) + ∑ e ∈ Finset.univ.filter (fun e : Fin E => col e = i), upd (ix2 e 0) := by
  rw [scatterAdd1Col_apply]
  congr 1
  refine Finset.sum_congr (Finset.filter_congr fun e _ => ?_) fun _ _ => rfl
  rw [hcol e, Nat.cast_inj, Fin.val_inj]

end Scatter1Col

/-! ## A pair of start indices per edge, into a rank-2 array: the dense adjacency accumulation -/

section Scatter2
variable {N0 N1 E w : Nat} (wf : ScatterDims.WF ⟨2, ![N0, N1]⟩ ⟨2, ![E, 2]⟩ ⟨1, ![E]⟩ [] [0, 1] [0, 1] 1)

/-- `x.at[idx[:, 0], idx[:, 1]].add(upd)` for `x : [N0, N1]`, `idx : [E, 2]`, `upd : [E]`: no window axes, both
    operand axes inserted, the start index's two components naming them in order. -/
abbrev scatter2Dims (N0 N1 E : Nat) (wf : ScatterDims.WF ⟨2, ![N0, N1]⟩ ⟨2, ![E, 2]⟩ ⟨1, ![E]⟩ [] [0, 1] [0, 1] 1) :
    ScatterDims ⟨2, ![N0, N1]⟩ ⟨2, ![E, 2]⟩ ⟨1, ![E]⟩ where
  updateWindowDims := []
  insertedWindowDims := [0, 1]
  scatterDimsToOperandDims := [0, 1]
  indexVectorDim := 1
  wf := wf

/-- Edge `e`'s start on the first axis is `idx[e, 0]` read signed. -/
theorem scatter2_start0 (e : Fin E) (idx : IVec ⟨2, ![E, 2]⟩ w) :
    (scatter2Dims N0 N1 E wf).start (ix1 e) idx 0 = (idx (ix2 e 0)).toInt := by
  unfold ScatterDims.start
  have hm : (0 : Fin 2) ∈ (scatter2Dims N0 N1 E wf).scatterDimsToOperandDims := by
    show (0 : Fin 2) ∈ ([0, 1] : List (Fin 2))
    decide
  rw [dif_pos hm]
  have hsi : (scatter2Dims N0 N1 E wf).siIdx (ix1 e) ⟨List.idxOf (0 : Fin 2) (scatter2Dims N0 N1 E wf).scatterDimsToOperandDims,
      List.idxOf_lt_length_iff.2 hm⟩ = ix2 e 0 := by
    funext b; refine Fin.ext ?_
    match b with
    | ⟨0, _⟩ => rfl
    | ⟨1, _⟩ => rfl
  rw [hsi]

/-- Edge `e`'s start on the second axis is `idx[e, 1]` read signed. -/
theorem scatter2_start1 (e : Fin E) (idx : IVec ⟨2, ![E, 2]⟩ w) :
    (scatter2Dims N0 N1 E wf).start (ix1 e) idx 1 = (idx (ix2 e 1)).toInt := by
  unfold ScatterDims.start
  have hm : (1 : Fin 2) ∈ (scatter2Dims N0 N1 E wf).scatterDimsToOperandDims := by
    show (1 : Fin 2) ∈ ([0, 1] : List (Fin 2))
    decide
  rw [dif_pos hm]
  have hsi : (scatter2Dims N0 N1 E wf).siIdx (ix1 e) ⟨List.idxOf (1 : Fin 2) (scatter2Dims N0 N1 E wf).scatterDimsToOperandDims,
      List.idxOf_lt_length_iff.2 hm⟩ = ix2 e 1 := by
    funext b; refine Fin.ext ?_
    match b with
    | ⟨0, _⟩ => rfl
    | ⟨1, _⟩ => rfl
  rw [hsi]

/-- There is no window: the window coordinate is `0` on both axes. -/
theorem scatter2_window (j : (⟨1, ![E]⟩ : Shape).Idx) (a : Fin 2) : (scatter2Dims N0 N1 E wf).window j a = 0 := by
  unfold ScatterDims.window
  have hk : a ∉ (scatter2Dims N0 N1 E wf).sKept := by
    show a ∉ ([] : List (Fin 2))
    exact List.not_mem_nil
  rw [dif_neg hk]

/-- Edge `e` lands on `(j, i)` exactly when `idx[e, 0]` is `j` and `idx[e, 1]` is `i`, both read signed. -/
theorem scatter2_resultIdx?_iff (e : Fin E) (j : Fin N0) (i : Fin N1) (idx : IVec ⟨2, ![E, 2]⟩ w) :
    (scatter2Dims N0 N1 E wf).resultIdx? (ix1 e) idx = some (ix2 j i)
      ↔ (idx (ix2 e 0)).toInt = (j.val : ℤ) ∧ (idx (ix2 e 1)).toInt = (i.val : ℤ) := by
  rw [resultIdx?_eq_some_iff]
  constructor
  · intro h
    have h0 := h 0
    have h1 := h 1
    rw [scatter2_start0, scatter2_window, Nat.cast_zero, add_zero] at h0
    rw [scatter2_start1, scatter2_window, Nat.cast_zero, add_zero] at h1
    exact ⟨h0, h1⟩
  · rintro ⟨h0, h1⟩ a
    match a with
    | ⟨0, _⟩ =>
      show (scatter2Dims N0 N1 E wf).start (ix1 e) idx 0 + ((scatter2Dims N0 N1 E wf).window (ix1 e) 0 : ℤ) = (j.val : ℤ)
      rw [scatter2_start0, scatter2_window, Nat.cast_zero, add_zero]
      exact h0
    | ⟨1, _⟩ =>
      show (scatter2Dims N0 N1 E wf).start (ix1 e) idx 1 + ((scatter2Dims N0 N1 E wf).window (ix1 e) 1 : ℤ) = (i.val : ℤ)
      rw [scatter2_start1, scatter2_window, Nat.cast_zero, add_zero]
      exact h1

/-- THE SCATTER-ADD READ AT `(j, i)`: the operand there plus the updates of the edges whose pair of start
    indices is `(j, i)`. -/
theorem scatterAdd2_apply {φ : FTy} (x : FVec Ideal ⟨2, ![N0, N1]⟩ φ) (idx : IVec ⟨2, ![E, 2]⟩ w)
    (upd : FVec Ideal ⟨1, ![E]⟩ φ) (j : Fin N0) (i : Fin N1) :
    Host.scatterAdd (F := Ideal) (scatter2Dims N0 N1 E wf) x idx upd (ix2 j i)
      = x (ix2 j i) + ∑ e ∈ Finset.univ.filter (fun e : Fin E =>
          (idx (ix2 e 0)).toInt = (j.val : ℤ) ∧ (idx (ix2 e 1)).toInt = (i.val : ℤ)), upd (ix1 e) := by
  unfold Host.scatterAdd
  rw [Ideal.hostScatterAdd_def]
  unfold Ideal.hostScatterAdd
  congr 1
  rw [sum_filter_equiv (ix1Equiv E)]
  exact Finset.sum_congr (Finset.filter_congr fun e _ => scatter2_resultIdx?_iff wf e j i idx) fun _ _ => rfl

/-- The same read when both start indices are known to name nodes: `row e` and `col e` are edge `e`'s two
    nodes, and the edges summed are those with `row e = j ∧ col e = i`. -/
theorem scatterAdd2_apply_of_nodes {φ : FTy} (x : FVec Ideal ⟨2, ![N0, N1]⟩ φ) (idx : IVec ⟨2, ![E, 2]⟩ w)
    (upd : FVec Ideal ⟨1, ![E]⟩ φ) (row : Fin E → Fin N0) (col : Fin E → Fin N1)
    (hrow : ∀ e, (idx (ix2 e 0)).toInt = ((row e).val : ℤ)) (hcol : ∀ e, (idx (ix2 e 1)).toInt = ((col e).val : ℤ))
    (j : Fin N0) (i : Fin N1) :
    Host.scatterAdd (F := Ideal) (scatter2Dims N0 N1 E wf) x idx upd (ix2 j i)
      = x (ix2 j i) + ∑ e ∈ Finset.univ.filter (fun e : Fin E => row e = j ∧ col e = i), upd (ix1 e) := by
  rw [scatterAdd2_apply]
  congr 1
  refine Finset.sum_congr (Finset.filter_congr fun e _ => ?_) fun _ _ => rfl
  rw [hrow e, hcol e, Nat.cast_inj, Nat.cast_inj, Fin.val_inj, Fin.val_inj]

end Scatter2

/-! ## Clamped start indices -/

/-- The node a signed start index names once clamped into `[0, N − 1]`, as a gather reads it. -/
def clampIdx {N : Nat} (hN : 0 < N) (z : ℤ) : Fin N := ⟨min z.toNat (N - 1), by omega⟩

/-- Inside `[0, N)` the clamp is the identity. -/
theorem clampIdx_of_inRange {N : Nat} (hN : 0 < N) {z : ℤ} (h0 : 0 ≤ z) (h1 : z < N) :
    clampIdx hN z = ⟨z.toNat, by omega⟩ := by
  refine Fin.ext ?_
  show min z.toNat (N - 1) = z.toNat
  omega

/-- A signed start index is node `j` (a scatter's landing condition) exactly when it is inside `[0, N)` and
    clamps to `j` (a gather's reading). -/
theorem eq_coe_iff_clampIdx {N : Nat} (hN : 0 < N) (z : ℤ) (j : Fin N) :
    z = (j.val : ℤ) ↔ (0 ≤ z ∧ z < N) ∧ clampIdx hN z = j := by
  have hj := j.isLt
  constructor
  · intro h
    refine ⟨⟨by omega, by omega⟩, Fin.ext ?_⟩
    show min z.toNat (N - 1) = j.val
    omega
  · rintro ⟨⟨h0, h1⟩, h⟩
    have := congrArg Fin.val h
    change min z.toNat (N - 1) = j.val at this
    omega

/-! ## Gathers: one start index per edge -/

section Gather1
variable {N E w : Nat} {α : Type} (wf : GatherDims.WF ⟨1, ![N]⟩ ⟨2, ![E, 1]⟩ ⟨1, ![E]⟩ [] [0] [] [0] [] 1 ![1])

/-- `x[idx]` for `x : [N]`, `idx : [E, 1]`: slices of one element, the operand's axis collapsed and named by
    the start index's one component. -/
abbrev gather1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT EDGE `e`: the operand at `idx[e, 0]`, read signed and clamped into `[0, N − 1]`. -/
theorem gather1_apply (hN : 0 < N) (x : (⟨1, ![N]⟩ : Shape).Idx → α) (idx : IVec ⟨2, ![E, 1]⟩ w) (e : Fin E) :
    Host.gather (gather1Dims N E wf) x idx (ix1 e) = x (ix1 (clampIdx hN (idx (ix2 e 0)).toInt)) := by
  unfold Host.gather
  congr 1
  funext a
  obtain rfl : a = 0 := Subsingleton.elim _ _
  refine Fin.ext ?_
  show (gather1Dims N E wf).start (ix1 e) idx 0 + (gather1Dims N E wf).batchCoord (ix1 e) 0
    + (gather1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather1Dims N E wf).startIndexMap from List.mem_singleton.mpr rfl)]
  have hsi : (gather1Dims N E wf).siIdx (ix1 e) ⟨List.idxOf (0 : Fin 1) (gather1Dims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The gather read at edge `e` when `idx[e, 0]` names a node: the operand at that node. -/
theorem gather1_apply_of_inRange (x : (⟨1, ![N]⟩ : Shape).Idx → α) (idx : IVec ⟨2, ![E, 1]⟩ w) (e : Fin E)
    (h0 : 0 ≤ (idx (ix2 e 0)).toInt) (h1 : (idx (ix2 e 0)).toInt < N) :
    Host.gather (gather1Dims N E wf) x idx (ix1 e) = x (ix1 ⟨(idx (ix2 e 0)).toInt.toNat, by omega⟩) := by
  have hN : 0 < N := by omega
  rw [gather1_apply wf hN, clampIdx_of_inRange hN h0 h1]

end Gather1

section Gather1Col
variable {N E w : Nat} {α : Type}
  (wf : GatherDims.WF ⟨2, ![N, 1]⟩ ⟨2, ![E, 1]⟩ ⟨2, ![E, 1]⟩ [1] [0] [] [0] [] 1 ![1, 1])

/-- `x[idx]` for `x : [N, 1]`, `idx : [E, 1]`: slices `[1, 1]`, the operand's leading axis collapsed and named by
    the start index's one component, its trailing axis the result's offset axis. -/
abbrev gather1ColDims (N E : Nat)
    (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- THE GATHER READ AT `(e, 0)`: the operand at `(idx[e, 0], 0)`, the start index read signed and clamped into
    `[0, N − 1]`. -/
theorem gather1Col_apply (hN : 0 < N) (x : (⟨2, ![N, 1]⟩ : Shape).Idx → α) (idx : IVec ⟨2, ![E, 1]⟩ w) (e : Fin E) :
    Host.gather (gather1ColDims N E wf) x idx (ix2 e 0) = x (ix2 (clampIdx hN (idx (ix2 e 0)).toInt) 0) := by
  unfold Host.gather
  congr 1
  funext a
  refine Fin.ext ?_
  match a with
  | ⟨0, _⟩ =>
    show (gather1ColDims N E wf).start (ix2 e 0) idx 0 + (gather1ColDims N E wf).batchCoord (ix2 e 0) 0
      + (gather1ColDims N E wf).offCoord (ix2 e 0) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather1ColDims N E wf).startIndexMap from List.mem_singleton.mpr rfl)]
    have hsi : (gather1ColDims N E wf).siIdx (ix2 e 0) ⟨List.idxOf (0 : Fin 2) (gather1ColDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gather1ColDims N E wf).start (ix2 e 0) idx 1 + (gather1ColDims N E wf).batchCoord (ix2 e 0) 1
      + (gather1ColDims N E wf).offCoord (ix2 e 0) 1 = 0
    have hs : (gather1ColDims N E wf).start (ix2 e 0) idx 1 = 0 := by
      unfold GatherDims.start
      have h : (1 : Fin 2) ∉ (gather1ColDims N E wf).startIndexMap := by
        show (1 : Fin 2) ∉ ([0] : List (Fin 2))
        decide
      rw [dif_neg h]
    have ho : (gather1ColDims N E wf).offCoord (ix2 e 0) 1 = 0 := by
      unfold GatherDims.offCoord
      have hk : (1 : Fin 2) ∈ (gather1ColDims N E wf).sKept := by
        show (1 : Fin 2) ∈ ([1] : List (Fin 2))
        decide
      rw [dif_pos hk]
      rfl
    rw [hs, GatherDims.batchCoord_eq_zero _ _ _ List.not_mem_nil, ho]

/-- The gather read at `(e, 0)` when `idx[e, 0]` names a node: the operand at `(that node, 0)`. -/
theorem gather1Col_apply_of_inRange (x : (⟨2, ![N, 1]⟩ : Shape).Idx → α) (idx : IVec ⟨2, ![E, 1]⟩ w) (e : Fin E)
    (h0 : 0 ≤ (idx (ix2 e 0)).toInt) (h1 : (idx (ix2 e 0)).toInt < N) :
    Host.gather (gather1ColDims N E wf) x idx (ix2 e 0) = x (ix2 ⟨(idx (ix2 e 0)).toInt.toNat, by omega⟩ 0) := by
  have hN : 0 < N := by omega
  rw [gather1Col_apply wf hN, clampIdx_of_inRange hN h0 h1]

end Gather1Col

end Cert.LibScatterRead
-- ==== Proof.RefLaw.lean ====
/-
  One sample, as the reference reads it, against the kernel's reading of the same sample. The reference's bin of
  confidence c is the integer ⌈10 c⌉ (the float rounded up, then converted), less one, kept between 0 and 9; the
  kernel's is ⌈10 c⌉ - 1 kept between 0 and 9 in floats, then converted. Both weights are 1 when 0 < c ≤ 1 and 0
  otherwise. When the weight is 1, c is a real in (0, 1], ⌈10 c⌉ is one of 1, …, 10, and both bins are the word of
  ⌈10 c⌉ - 1. When the weight is 0 the bins may differ (far below zero the conversion saturates and the subtraction
  wraps), but the weight cancels the term. Hence, for every extended real c and every k < 10,
      [kernel bin of c = k] · (kernel weight of c) = (reference weight of c if reference bin of c = k, else 0).
-/
import Idealize.ShloMosaic.PureOps.Ideal
import Idealize.ShloMosaic.PureOps.Ideal.Laws
import proofs.«179092_j17343077941754_2_alg».proof.Proof.Elem
import proofs.«179092_j17343077941754_2_alg».proof.Proof.LibKerWords
import proofs.«179092_j17343077941754_2_alg».proof.Proof.Bins

noncomputable section

namespace Cert.Hist

open Idealize.ShloMosaic

/-- The reference's bin of confidence `c`: `⌈10 c⌉` converted to an integer, less one, kept between `0` and `9`. -/
def rbin (c : EReal) : BitVec 32 :=
  IntOp.minsi 9#32 (IntOp.maxsi 0#32 (IntOp.subi
    (FloatOps.fptosi (F := Ideal) 32
      (FloatOps.hostUnary (F := Ideal) (φ := .f32) .ceil (c * FloatOps.ofBits (F := Ideal) .f32 0x41200000#32)))
    1#32))

/-- The reference's weight of confidence `c`: `1` when `0 < c ≤ 1`, else `0`. -/
def rwgt (c : EReal) : EReal :=
  FloatOps.uitofp (F := Ideal) .f32
    (IntOp.andi (FloatOps.cmpf (F := Ideal) (φ := .f32) .ogt c (FloatOps.ofBits (F := Ideal) .f32 0x00000000#32))
      (FloatOps.cmpf (F := Ideal) (φ := .f32) .ole c (FloatOps.ofBits (F := Ideal) .f32 0x3F800000#32)))

/-! The float constants, as the reals their patterns denote. -/

theorem ofBits_one : Ideal.ofBits .f32 0x3F800000#32 = ((1 : ℝ) : EReal) := by
  simp [Ideal.ofBits, Ideal.ieee, -EReal.coe_mul]; norm_num

theorem ofBits_nine : Ideal.ofBits .f32 0x41100000#32 = ((9 : ℝ) : EReal) := by
  simp [Ideal.ofBits, Ideal.ieee, -EReal.coe_mul]; norm_num

theorem ofBits_ten : Ideal.ofBits .f32 0x41200000#32 = ((10 : ℝ) : EReal) := by
  simp [Ideal.ofBits, Ideal.ieee, -EReal.coe_mul]; norm_num

/-! The weights. -/

/-- The two comparisons of a weight, as one decided bit. -/
theorem valid_bit (c : EReal) :
    IntOp.andi (FloatOps.cmpf (F := Ideal) (φ := .f32) .ogt c (FloatOps.ofBits (F := Ideal) .f32 0x00000000#32))
        (FloatOps.cmpf (F := Ideal) (φ := .f32) .ole c (FloatOps.ofBits (F := Ideal) .f32 0x3F800000#32))
      = if 0 < c ∧ c ≤ 1 then 1#1 else 0#1 := by
  have h0 : FloatOps.cmpf (F := Ideal) (φ := .f32) .ogt c (FloatOps.ofBits (F := Ideal) .f32 0x00000000#32)
      = if 0 < c then 1#1 else 0#1 := by
    show BitVec.ofBool (decide (Ideal.ofBits .f32 0x00000000#32 < c)) = _
    rw [Ideal.ofBits_zero_f32]
    by_cases h : 0 < c <;> simp [h]
  have h1 : FloatOps.cmpf (F := Ideal) (φ := .f32) .ole c (FloatOps.ofBits (F := Ideal) .f32 0x3F800000#32)
      = if c ≤ 1 then 1#1 else 0#1 := by
    show BitVec.ofBool (decide (c ≤ Ideal.ofBits .f32 0x3F800000#32)) = _
    rw [ofBits_one, EReal.coe_one]
    by_cases h : c ≤ 1 <;> simp [h]
  rw [h0, h1, Cert.KernelIdeal.HostValue.andi_bit]

/-- The kernel's weight is `1` on `(0, 1]` and `0` elsewhere. -/
theorem wgt_eq (c : EReal) : wgt c = if 0 < c ∧ c ≤ 1 then 1 else 0 := by
  unfold wgt
  rw [valid_bit]
  by_cases h : 0 < c ∧ c ≤ 1
  · rw [if_pos h, if_pos h]
    show (((BitVec.setWidth 32 (1#1)).toInt : ℝ) : EReal) = 1
    rw [show (BitVec.setWidth 32 (1#1)).toInt = 1 from by decide]
    simp
  · rw [if_neg h, if_neg h]
    show (((BitVec.setWidth 32 (0#1)).toInt : ℝ) : EReal) = 0
    rw [show (BitVec.setWidth 32 (0#1)).toInt = 0 from by decide]
    simp

/-- The reference's weight is `1` on `(0, 1]` and `0` elsewhere. -/
theorem rwgt_eq (c : EReal) : rwgt c = if 0 < c ∧ c ≤ 1 then 1 else 0 := by
  unfold rwgt
  rw [valid_bit, Cert.KernelIdeal.HostValue.uitofp_bit]

/-! The bins. -/

/-- A natural below `2^31`, as a float, converts to its word: nothing to truncate, nothing to clamp. -/
theorem fptosi_natCast (n : ℕ) (hn : n < 2 ^ 31) :
    FloatOps.fptosi (F := Ideal) (φ := .f32) 32 (((n : ℝ)) : EReal) = BitVec.ofNat 32 n := by
  show Ideal.fptosi 32 (((n : ℝ)) : EReal) = _
  unfold Ideal.fptosi
  rw [Ideal.toIntClamped_coe, if_pos (Nat.cast_nonneg n), Int.floor_natCast,
    min_eq_right (by push_cast; omega), max_eq_right (by push_cast; omega), BitVec.ofInt_natCast]

/-- On `(0, 1]` both bins are the word of `⌈10 c⌉ - 1`, one of `0, …, 9`. -/
theorem bins_of_valid (c : EReal) (h : 0 < c ∧ c ≤ 1) :
    ∃ n : ℕ, n < 10 ∧ kbin c = BitVec.ofNat 32 n ∧ (rbin c).toInt = (n : ℤ) := by
  induction c using EReal.rec with
  | bot => exact absurd h.1 (by simp)
  | top => exact absurd h.2 (not_le.mpr (EReal.coe_lt_top 1))
  | coe x =>
    have hx0 : 0 < x := by exact_mod_cast h.1
    have hx1 : x ≤ 1 := by exact_mod_cast h.2
    have hK1 : 1 ≤ ⌈x * 10⌉ := Int.one_le_ceil_iff.mpr (by positivity)
    have hK10 : ⌈x * 10⌉ ≤ 10 := Int.ceil_le.mpr (by push_cast; linarith)
    obtain ⟨n, hn⟩ : ∃ n : ℕ, ⌈x * 10⌉ = (n : ℤ) + 1 := ⟨(⌈x * 10⌉ - 1).toNat, by omega⟩
    have hn10 : n < 10 := by omega
    have hc : ((⌈x * 10⌉ : ℤ) : ℝ) = (((n + 1 : ℕ)) : ℝ) := by rw [hn]; push_cast; ring
    have hc1 : ((⌈x * 10⌉ : ℤ) : ℝ) - 1 = ((n : ℕ) : ℝ) := by rw [hn]; push_cast; ring
    refine ⟨n, hn10, ?_, ?_⟩
    · simp only [kbin, Ideal.ofBits_def, Ideal.ceil_def, ofBits_nine, Ideal.ofBits_zero_f32, ofBits_ten, ofBits_one]
      rw [← EReal.coe_mul, Ideal.liftRound_coe, ← EReal.coe_sub, hc1,
        max_eq_right (EReal.coe_nonneg.mpr (Nat.cast_nonneg n)),
        min_eq_right (EReal.coe_le_coe_iff.mpr (by exact_mod_cast (by omega : n ≤ 9))),
        fptosi_natCast n (by omega)]
    · simp only [rbin, Ideal.ofBits_def, Ideal.hostUnary_ceil_def, ofBits_ten]
      rw [← EReal.coe_mul, Ideal.liftRound_coe, hc, fptosi_natCast (n + 1) (by omega)]
      interval_cases n <;> decide

/-! The law. -/

/-- For every extended real `c` and every `k < 10`: the kernel's indicator of bin `k` times its weight is the
    reference's weight when the reference's bin is `k`, and `0` otherwise. -/
theorem sample_law (c : EReal) (k : ℕ) (hk : k < 10) :
    hotw (kbin c) (BitVec.ofNat 32 k) * wgt c = if (rbin c).toInt = (k : ℤ) then rwgt c else 0 := by
  rw [wgt_eq, rwgt_eq]
  by_cases h : 0 < c ∧ c ≤ 1
  · obtain ⟨n, hn, hkb, hrb⟩ := bins_of_valid c h
    rw [if_pos h, mul_one, hkb, hrb, hotw_ofNat n k (by omega) (by omega)]
    by_cases e : n = k
    · rw [if_pos e, if_pos (by exact_mod_cast e)]
    · rw [if_neg e, if_neg (by exact_mod_cast e)]
  · rw [if_neg h, mul_zero, ite_self]

/-- The same with a further factor `d`: the sample's confidence, or its label. -/
theorem sample_law_mul (c d : EReal) (k : ℕ) (hk : k < 10) :
    hotw (kbin c) (BitVec.ofNat 32 k) * wgt c * d = if (rbin c).toInt = (k : ℤ) then d * rwgt c else 0 := by
  rw [sample_law c k hk]
  by_cases h : (rbin c).toInt = (k : ℤ)
  · rw [if_pos h, if_pos h, mul_comm]
  · rw [if_neg h, if_neg h, zero_mul]

end Cert.Hist

end
-- ==== Proof.RefSum.lean ====
/-
  The flat array of 2^25 samples, summed block by block: every position e < 2^25 is (4096 t + r)·128 + l for exactly
  one block t < 64, row r < 4096 and lane l < 128 (t = e / 2^19, r = (e / 128) mod 4096, l = e mod 128), so a sum over
  all positions is the sum over the blocks of the sum over the rows of the sum over the lanes. The sums are in any
  commutative monoid: no term need be finite.
-/
import Mathlib.Algebra.BigOperators.Fin
import Mathlib.Algebra.BigOperators.Group.Finset.Sigma
import proofs.«179092_j17343077941754_2_alg».proof.Proof.Elem

noncomputable section

namespace Cert.Hist

open scoped BigOperators

/-- Block, row and lane against the flat position. -/
def flatEquiv : (Fin 64 × Fin 4096) × Fin 128 ≃ Fin 33554432 where
  toFun p := flat p.1.1 p.1.2 p.2
  invFun e := ((⟨e.val / 524288, by have := e.isLt; omega⟩, ⟨e.val / 128 % 4096, by omega⟩), ⟨e.val % 128, by omega⟩)
  left_inv := by
    rintro ⟨⟨t, r⟩, l⟩
    have ht := t.isLt
    have hr := r.isLt
    have hl := l.isLt
    refine Prod.ext (Prod.ext (Fin.ext ?_) (Fin.ext ?_)) (Fin.ext ?_)
    · show ((4096 * t.val + r.val) * 128 + l.val) / 524288 = t.val
      omega
    · show ((4096 * t.val + r.val) * 128 + l.val) / 128 % 4096 = r.val
      omega
    · show ((4096 * t.val + r.val) * 128 + l.val) % 128 = l.val
      omega
  right_inv := by
    intro e
    refine Fin.ext ?_
    show (4096 * (e.val / 524288) + e.val / 128 % 4096) * 128 + e.val % 128 = e.val
    omega

theorem flatEquiv_apply (t : Fin 64) (r : Fin 4096) (l : Fin 128) : flatEquiv ((t, r), l) = flat t r l :=
  congrFun (rfl : (flatEquiv : (Fin 64 × Fin 4096) × Fin 128 → Fin 33554432) = fun p => flat p.1.1 p.1.2 p.2) ((t, r), l)

/-- A sum over the flat positions, block by block, row by row, lane by lane. -/
theorem sum_flat {M : Type*} [AddCommMonoid M] (F : Fin 33554432 → M) :
    ∑ e : Fin 33554432, F e = ∑ t : Fin 64, ∑ r : Fin 4096, ∑ l : Fin 128, F (flat t r l) := by
  rw [← Equiv.sum_comp flatEquiv F, Fintype.sum_prod_type, Fintype.sum_prod_type]
  exact Finset.sum_congr rfl fun t _ => Finset.sum_congr rfl fun r _ => Finset.sum_congr rfl fun l _ =>
    congrArg F (flatEquiv_apply t r l)

end Cert.Hist

end
-- ==== Proof.RefSide.lean ====
/-
  The reference's three per-bin sums, read at bin j. Each is an accumulating scatter into ten zeros: at bin j it holds
  zero plus the sum, over the samples whose bin is j, of the sample's update — its weight, its confidence times its
  weight, its label times its weight. Sample by sample the reference's bin and weight are functions of the confidence
  alone; by the law of one sample, "the update if the reference's bin is j, else nothing" is the kernel's indicator of
  bin j times the kernel's weight (times the confidence, or the label); and the sum over the 2^25 samples is the sum
  block by block, row by row, lane by lane.
-/
import Idealize.ShloMosaic.PureOps.Ideal
import Idealize.ShloMosaic.Lib.ValueIdx
import Idealize.ShloMosaic.Lib.Pipeline.Value
import proofs.«179092_j17343077941754_2_alg».proof.Proof.RefTerms
import proofs.«179092_j17343077941754_2_alg».proof.Proof.LibScatterRead
import proofs.«179092_j17343077941754_2_alg».proof.Proof.RefLaw
import proofs.«179092_j17343077941754_2_alg».proof.Proof.RefSum

noncomputable section

namespace Cert.Hist

open Idealize.ShloMosaic Idealize.ShloMosaic.ValueIdx Cert.ReferenceIdeal Cert.ReferenceIdeal.Gen

open scoped BigOperators

/-! The scatter and its operands, read at an index. Each reading is an equation between functions applied to the
index, so that rewriting by it compares the two sides as written. -/

/-- The reference's scatter at bin `j`: the operand there plus the updates of the samples whose start index is `j`. -/
theorem scatter_read (x : FVec Ideal S10 .f32) (idx : IVec S33554432x1 32) (upd : FVec Ideal S33554432 .f32)
    (j : Fin 10) :
    Host.scatterAdd (F := Ideal) scatter_S10_S33554432x1_S33554432_n_0_0_1 x idx upd (ix1 j)
      = x (ix1 j)
        + ∑ e ∈ Finset.univ.filter (fun e : Fin 33554432 => (idx (ix2 e 0)).toInt = (j.val : ℤ)), upd (ix1 e) :=
  Cert.LibScatterRead.scatterAdd1_apply (N := 10) (E := 33554432)
    Facts₀.scatter_S10_S33554432x1_S33554432_n_0_0_1_wf x idx upd j

/-- Every one of the ten zeros is the float zero. -/
theorem zeros10_at (j : Fin 10) : zeros10 (ix1 j) = Ideal.ofBits .f32 0x00000000#32 :=
  congrFun (rfl : zeros10 = fun _ => Ideal.ofBits .f32 0x00000000#32) (ix1 j)

/-- The reference's weight of sample `e` is the weight of its confidence. -/
theorem refW_at (x0 : FVec Ideal S33554432 .f32) (e : Fin 33554432) : refW x0 (ix1 e) = rwgt (x0 (ix1 e)) :=
  congrFun (rfl : refW x0 = fun i => rwgt (x0 i)) (ix1 e)

/-- The column of start indices is the column of the samples' bins. -/
theorem refIdx_eq (x0 : FVec Ideal S33554432 .f32) :
    refIdx x0 = broadcastInDim S33554432x1 ![0] bcast_S33554432_S33554432x1_0 (fun i => rbin (x0 i)) := rfl

/-- The start index of sample `e` is the bin of its confidence. -/
theorem refIdx_at (x0 : FVec Ideal S33554432 .f32) (e : Fin 33554432) :
    refIdx x0 (ix2 e 0) = rbin (x0 (ix1 e)) := by
  rw [refIdx_eq]
  exact broadcastInDim_apply _ _ (fun i => rbin (x0 i)) (ix2 e 0) (ix1 e) (fun a => match a with
    | ⟨0, _⟩ => by
      show e.val = if (33554432 : Nat) = 1 then 0 else e.val
      rw [if_neg (by decide)])

/-- Confidence times weight, at sample `e`. -/
theorem confUpd_at (x0 : FVec Ideal S33554432 .f32) (e : Fin 33554432) :
    mulf x0 (refW x0) (ix1 e) = x0 (ix1 e) * rwgt (x0 (ix1 e)) :=
  congrFun (rfl : mulf x0 (refW x0) = fun i => x0 i * rwgt (x0 i)) (ix1 e)

/-- Label times weight, at sample `e`. -/
theorem labUpd_at (x0 : FVec Ideal S33554432 .f32) (x1 : IVec S33554432 32) (e : Fin 33554432) :
    mulf (sitofp (F := Ideal) .f32 x1) (refW x0) (ix1 e)
      = FloatOps.sitofp (F := Ideal) .f32 (x1 (ix1 e)) * rwgt (x0 (ix1 e)) :=
  congrFun (rfl : mulf (sitofp (F := Ideal) .f32 x1) (refW x0)
    = fun i => FloatOps.sitofp (F := Ideal) .f32 (x1 i) * rwgt (x0 i)) (ix1 e)

/-! The three sums. -/

/-- Per bin, the number of valid samples: the kernel's indicator times weight, summed over blocks, rows and lanes. -/
theorem refCnt_apply (x0 : FVec Ideal S33554432 .f32) (j : Fin 10) :
    refCnt x0 (ix1 j) = Ideal.ofBits .f32 0x00000000#32 + ∑ t : Fin 64, ∑ r : Fin 4096, ∑ l : Fin 128,
      hotw (kbin (x0 (ix1 (flat t r l)))) (BitVec.ofNat 32 j.val) * wgt (x0 (ix1 (flat t r l))) := by
  calc refCnt x0 (ix1 j)
      = Ideal.ofBits .f32 0x00000000#32 + ∑ e : Fin 33554432,
          (if (refIdx x0 (ix2 e 0)).toInt = (j.val : ℤ) then refW x0 (ix1 e) else 0) := by
        unfold refCnt
        rw [scatter_read, zeros10_at, Finset.sum_filter]
    _ = Ideal.ofBits .f32 0x00000000#32 + ∑ e : Fin 33554432,
          hotw (kbin (x0 (ix1 e))) (BitVec.ofNat 32 j.val) * wgt (x0 (ix1 e)) := by
        refine congrArg (Ideal.ofBits .f32 0x00000000#32 + ·) (Finset.sum_congr rfl fun e _ => ?_)
        rw [refIdx_at, refW_at]
        exact (sample_law _ j.val j.isLt).symm
    _ = _ := congrArg (Ideal.ofBits .f32 0x00000000#32 + ·)
        (sum_flat fun e => hotw (kbin (x0 (ix1 e))) (BitVec.ofNat 32 j.val) * wgt (x0 (ix1 e)))

/-- Per bin, the sum of the valid samples' confidences. -/
theorem refConf_apply (x0 : FVec Ideal S33554432 .f32) (j : Fin 10) :
    refConf x0 (ix1 j) = Ideal.ofBits .f32 0x00000000#32 + ∑ t : Fin 64, ∑ r : Fin 4096, ∑ l : Fin 128,
      hotw (kbin (x0 (ix1 (flat t r l)))) (BitVec.ofNat 32 j.val) * wgt (x0 (ix1 (flat t r l)))
        * x0 (ix1 (flat t r l)) := by
  calc refConf x0 (ix1 j)
      = Ideal.ofBits .f32 0x00000000#32 + ∑ e : Fin 33554432,
          (if (refIdx x0 (ix2 e 0)).toInt = (j.val : ℤ) then mulf x0 (refW x0) (ix1 e) else 0) := by
        unfold refConf
        rw [scatter_read, zeros10_at, Finset.sum_filter]
    _ = Ideal.ofBits .f32 0x00000000#32 + ∑ e : Fin 33554432,
          hotw (kbin (x0 (ix1 e))) (BitVec.ofNat 32 j.val) * wgt (x0 (ix1 e)) * x0 (ix1 e) := by
        refine congrArg (Ideal.ofBits .f32 0x00000000#32 + ·) (Finset.sum_congr rfl fun e _ => ?_)
        rw [refIdx_at, confUpd_at]
        exact (sample_law_mul _ _ j.val j.isLt).symm
    _ = _ := congrArg (Ideal.ofBits .f32 0x00000000#32 + ·)
        (sum_flat fun e => hotw (kbin (x0 (ix1 e))) (BitVec.ofNat 32 j.val) * wgt (x0 (ix1 e)) * x0 (ix1 e))

/-- Per bin, the sum of the valid samples' labels. -/
theorem refLab_apply (x0 : FVec Ideal S33554432 .f32) (x1 : IVec S33554432 32) (j : Fin 10) :
    refLab x0 x1 (ix1 j) = Ideal.ofBits .f32 0x00000000#32 + ∑ t : Fin 64, ∑ r : Fin 4096, ∑ l : Fin 128,
      hotw (kbin (x0 (ix1 (flat t r l)))) (BitVec.ofNat 32 j.val) * wgt (x0 (ix1 (flat t r l)))
        * FloatOps.sitofp (F := Ideal) .f32 (x1 (ix1 (flat t r l))) := by
  calc refLab x0 x1 (ix1 j)
      = Ideal.ofBits .f32 0x00000000#32 + ∑ e : Fin 33554432,
          (if (refIdx x0 (ix2 e 0)).toInt = (j.val : ℤ)
            then mulf (sitofp (F := Ideal) .f32 x1) (refW x0) (ix1 e) else 0) := by
        unfold refLab
        rw [scatter_read, zeros10_at, Finset.sum_filter]
    _ = Ideal.ofBits .f32 0x00000000#32 + ∑ e : Fin 33554432,
          hotw (kbin (x0 (ix1 e))) (BitVec.ofNat 32 j.val) * wgt (x0 (ix1 e))
            * FloatOps.sitofp (F := Ideal) .f32 (x1 (ix1 e)) := by
        refine congrArg (Ideal.ofBits .f32 0x00000000#32 + ·) (Finset.sum_congr rfl fun e _ => ?_)
        rw [refIdx_at, labUpd_at]
        exact (sample_law_mul _ _ j.val j.isLt).symm
    _ = _ := congrArg (Ideal.ofBits .f32 0x00000000#32 + ·)
        (sum_flat fun e => hotw (kbin (x0 (ix1 e))) (BitVec.ofNat 32 j.val) * wgt (x0 (ix1 e))
          * FloatOps.sitofp (F := Ideal) .f32 (x1 (ix1 e)))

end Cert.Hist

end
-- ==== Proof.KTail.lean ====
/-
  After the region the kernel's program cuts the first ten lanes out of each of the three [1, 128] output arrays and
  applies the same last stage as the reference. So its result is that last stage of the first ten lanes of the counts,
  the confidence sums and the label sums carried to the last grid point.
-/
import proofs.«179092_j17343077941754_2_alg».proof.Proof.Gen.KernelIdeal.Frame
import Idealize.ShloMosaic.Lib.Pipeline.Value
import Idealize.ShloMosaic.Lib.StableHlo.Run
import Idealize.ShloMosaic.Lib.Tactic
import proofs.«179092_j17343077941754_2_alg».proof.Proof.Final
import proofs.«179092_j17343077941754_2_alg».proof.Proof.RefTerms

noncomputable section

namespace Cert.Hist

open Idealize.ShloMosaic Idealize.ShloMosaic.TcCoe Idealize.SL.Sem
open Idealize.ShloMosaic.Pipeline (Dat)
open Cert.KernelIdeal Cert.KernelIdeal.Gen

/-- The first ten lanes of a [1, 128] array, as a vector of ten. -/
def first10 (a : FVec Ideal S1x128 .f32) : FVec Ideal S10 .f32 :=
  shapeCast S10 (extractStridedSlice S1x10 ![0, 0] a slices_S1x128_S1x10_0_0) shapeCasts_S1x10_S10

set_option maxHeartbeats 1000000 in
/-- The operations after the region, run from any contents in which the three output arrays hold `a2`, `a3`, `a4`,
    leave in the result the last stage of the first ten lanes of those three. -/
theorem tail_run (c : Dev nD) (W : Valuation τ sig (Elt Ideal)) (a2 a3 a4 : FVec Ideal S1x128 .f32)
    (h2 : W (Proc.devRef .tc main_v2_0) = a2) (h3 : W (Proc.devRef .tc main_v2_1) = a3)
    (h4 : W (Proc.devRef .tc main_v2_2) = a4) :
    StableHlo.after (hostOps1 ++ (hostOps1_1 ++ hostOps1_2)) W (Proc.devRef .tc main_v22)
      = tail (first10 a2) (first10 a3) (first10 a4) := by
  simp only [hostOps1, hostOps1_1, hostOps1_2, List.cons_append, List.nil_append]
  after_results_simp
  rw [h2, h3, h4]
  rfl

variable (m : (ℓ : Loc nD τ sig) → Buf (Elt Ideal) ℓ)

/-- The kernel program's result: the last stage of the first ten lanes of the three final arrays. -/
theorem ktail_eq (c : Dev nD) :
    Pipeline.afterTail₀ cfgs (dats m) 0 (V0 m) [hostOps1, hostOps1_1, hostOps1_2] c main_v22
      = tail (first10 (res2 m c)) (first10 (res3 m c)) (first10 (res4 m c)) := by
  have e2 : Pipeline.withArrays (cfgs 0).spec c (V0 m c) (fun w => (dats m 0 c).arrAt w (cfgs 0).N) (Proc.devRef .tc main_v2_0)
      = res2 m c := (Pipeline.withArrays_arr spec0 launch0.win.arr_inj c _ _ 2).trans (final2 m c)
  have e3 : Pipeline.withArrays (cfgs 0).spec c (V0 m c) (fun w => (dats m 0 c).arrAt w (cfgs 0).N) (Proc.devRef .tc main_v2_1)
      = res3 m c := (Pipeline.withArrays_arr spec0 launch0.win.arr_inj c _ _ 3).trans (final3 m c)
  have e4 : Pipeline.withArrays (cfgs 0).spec c (V0 m c) (fun w => (dats m 0 c).arrAt w (cfgs 0).N) (Proc.devRef .tc main_v2_2)
      = res4 m c := (Pipeline.withArrays_arr spec0 launch0.win.arr_inj c _ _ 4).trans (final4 m c)
  unfold Pipeline.afterTail₀
  simp only [List.flatten_cons, List.flatten_nil, List.append_nil]
  exact tail_run c _ _ _ _ e2 e3 e4

end Cert.Hist

end
-- ==== Proof.Bridge.lean ====
/-
  The kernel's three final arrays against the reference's three per-bin sums. Lane `j < 10` of the counts after the
  last grid point is zero plus, over the 64 blocks, the 4096 rows and the 128 lanes, the indicator of bin `j` times
  the weight of the sample read there; the block's entry `(r, l)` at point `t` is sample `(4096 t + r) · 128 + l`
  of the flat array; and that triple sum is what the reference's scatter leaves in bin `j`. Likewise the confidence
  sums and the label sums. So the first ten lanes of each final array are the reference's ten-entry array.
-/
import proofs.«179092_j17343077941754_2_alg».proof.Proof.Gen.KernelIdeal.Frame
import Idealize.ShloMosaic.Lib.ValueLayout
import proofs.«179092_j17343077941754_2_alg».proof.Proof.Final
import proofs.«179092_j17343077941754_2_alg».proof.Proof.Sums
import proofs.«179092_j17343077941754_2_alg».proof.Proof.BlockRead
import proofs.«179092_j17343077941754_2_alg».proof.Proof.RefSide
import proofs.«179092_j17343077941754_2_alg».proof.Proof.KTail

noncomputable section

namespace Cert.Hist

open Idealize.ShloMosaic Idealize.ShloMosaic.TcCoe Idealize.ShloMosaic.ValueIdx Idealize.SL.Sem
open Cert.KernelIdeal Cert.KernelIdeal.Gen

/-- Entry `j` of the first ten lanes is lane `j`. -/
theorem first10_apply (a : FVec Ideal S1x128 .f32) (j : Fin 10) :
    first10 a (ix1 j) = a (ix2 (0 : Fin 1) ⟨j.val, by have := j.isLt; omega⟩) := by
  unfold first10
  rw [shapeCast_1a_a_apply]
  exact slice2_axis1_apply 0 a slices_S1x128_S1x10_0_0 (0 : Fin 1) j ⟨j.val, by have := j.isLt; omega⟩ (by simp)

variable (m : (ℓ : Loc nD τ sig) → Buf (Elt Ideal) ℓ)

/-- Lane `j` of the counts after the last point is the reference's count for bin `j`. -/
theorem res2_lane (c : Dev nD) (j : Fin 10) :
    res2 m c (ix2 (0 : Fin 1) ⟨j.val, by have := j.isLt; omega⟩) = refCnt (m ((c : Thread nD τ).loc main_arg0)) (ix1 j) := by
  rw [refCnt_apply]
  have hq : (⟨j.val, by have := j.isLt; omega⟩ : Fin 128).val < 10 := j.isLt
  refine (carried_cnt m c (0 : Fin 1) ⟨j.val, by have := j.isLt; omega⟩ hq (62 + 1) lastLt).trans ?_
  refine congrArg (fun s => Ideal.ofBits .f32 0x00000000#32 + s) ?_
  refine Finset.sum_congr rfl fun t _ => ?_
  unfold cntTot
  refine Finset.sum_congr rfl fun r _ => Finset.sum_congr rfl fun l _ => ?_
  rw [blk0_apply m c ⟨t.val, Nat.lt_of_lt_of_le t.isLt lastLt⟩ t.isLt r l]

/-- Lane `j` of the confidence sums after the last point is the reference's confidence sum for bin `j`. -/
theorem res3_lane (c : Dev nD) (j : Fin 10) :
    res3 m c (ix2 (0 : Fin 1) ⟨j.val, by have := j.isLt; omega⟩) = refConf (m ((c : Thread nD τ).loc main_arg0)) (ix1 j) := by
  rw [refConf_apply]
  have hq : (⟨j.val, by have := j.isLt; omega⟩ : Fin 128).val < 10 := j.isLt
  refine (carried_conf m c (0 : Fin 1) ⟨j.val, by have := j.isLt; omega⟩ hq (62 + 1) lastLt).trans ?_
  refine congrArg (fun s => Ideal.ofBits .f32 0x00000000#32 + s) ?_
  refine Finset.sum_congr rfl fun t _ => ?_
  unfold confTot
  refine Finset.sum_congr rfl fun r _ => Finset.sum_congr rfl fun l _ => ?_
  rw [blk0_apply m c ⟨t.val, Nat.lt_of_lt_of_le t.isLt lastLt⟩ t.isLt r l]

/-- Lane `j` of the label sums after the last point is the reference's label sum for bin `j`. -/
theorem res4_lane (c : Dev nD) (j : Fin 10) :
    res4 m c (ix2 (0 : Fin 1) ⟨j.val, by have := j.isLt; omega⟩) = refLab (m ((c : Thread nD τ).loc main_arg0)) (m ((c : Thread nD τ).loc main_arg1)) (ix1 j) := by
  rw [refLab_apply]
  have hq : (⟨j.val, by have := j.isLt; omega⟩ : Fin 128).val < 10 := j.isLt
  refine (carried_lab m c (0 : Fin 1) ⟨j.val, by have := j.isLt; omega⟩ hq (62 + 1) lastLt).trans ?_
  refine congrArg (fun s => Ideal.ofBits .f32 0x00000000#32 + s) ?_
  refine Finset.sum_congr rfl fun t _ => ?_
  unfold labTot
  refine Finset.sum_congr rfl fun r _ => Finset.sum_congr rfl fun l _ => ?_
  rw [blk0_apply m c ⟨t.val, Nat.lt_of_lt_of_le t.isLt lastLt⟩ t.isLt r l, blk1_apply m c ⟨t.val, Nat.lt_of_lt_of_le t.isLt lastLt⟩ t.isLt r l]

/-- The first ten lanes of the three final arrays are the reference's three arrays. -/
theorem first10_res2 (c : Dev nD) : first10 (res2 m c) = refCnt (m ((c : Thread nD τ).loc main_arg0)) :=
  funext fun i => by
    obtain ⟨j, rfl⟩ : ∃ j : Fin 10, i = ix1 j := ⟨i 0, eq_ix1 i⟩
    rw [first10_apply]; exact res2_lane m c j
theorem first10_res3 (c : Dev nD) : first10 (res3 m c) = refConf (m ((c : Thread nD τ).loc main_arg0)) :=
  funext fun i => by
    obtain ⟨j, rfl⟩ : ∃ j : Fin 10, i = ix1 j := ⟨i 0, eq_ix1 i⟩
    rw [first10_apply]; exact res3_lane m c j
theorem first10_res4 (c : Dev nD) :
    first10 (res4 m c) = refLab (m ((c : Thread nD τ).loc main_arg0)) (m ((c : Thread nD τ).loc main_arg1)) :=
  funext fun i => by
    obtain ⟨j, rfl⟩ : ∃ j : Fin 10, i = ix1 j := ⟨i 0, eq_ix1 i⟩
    rw [first10_apply]; exact res4_lane m c j

/-- THE KERNEL PROGRAM'S RESULT, as a function of its two argument arrays: the reference's three per-bin sums of them,
    through the shared last stage. -/
theorem kernel_result (c : Dev nD) :
    Pipeline.afterTail₀ cfgs (dats m) 0 (V0 m) [hostOps1, hostOps1_1, hostOps1_2] c main_v22
      = tail (refCnt (m ((c : Thread nD τ).loc main_arg0))) (refConf (m ((c : Thread nD τ).loc main_arg0)))
          (refLab (m ((c : Thread nD τ).loc main_arg0)) (m ((c : Thread nD τ).loc main_arg1))) := by
  rw [ktail_eq, first10_res2, first10_res3, first10_res4]

end Cert.Hist

end
-- ==== Proof.lean ====
/-
  The calibration-error kernel against its reference, over the extended reals.

  Both programs bin 2^25 samples into ten bins by confidence, keep per bin three sums over the valid samples (those with
  confidence in (0, 1]) — their number, their confidences, their labels — and finish with the same last stage: over the
  non-empty bins, |mean confidence - mean label| times the bin's share of the samples, summed.

  The kernel walks the samples in 64 blocks of 4096 rows by 128 lanes. At each block, for each bin b = 0 … 9, it forms the
  indicator of "bin = b" times the weight, totals it over the block (and its products with the confidence and with the
  label), and adds the total into lane b of a carried vector; after the last block the vectors are written out and their
  first ten lanes go to the last stage. So lane j of the counts ends at
      0 + Σ_t Σ_r Σ_l [bin(c) = j] · w(c),      c = sample (4096 t + r) · 128 + l,
  and likewise for the other two. The reference scatters w(c), c · w(c) and label · w(c) into ten zeros at the sample's
  bin: bin j ends at 0 + Σ over the samples with bin j. The two agree sample by sample: where the weight is 1 the two
  ways of computing the bin give the same integer ⌈10 c⌉ - 1, and where it is 0 the term is 0 whichever bin it lands in.
  Nothing needs the inputs finite: sums of extended reals commute and associate, and 0 · x = 0 for every x.

  The three frames are the generated ones (the reference's: its run with the result dropped); the ideal pass rewrote
  nothing, so the kernel's idealization claim is trivial.
-/
import proofs.«179092_j17343077941754_2_alg».proof.Defs
import proofs.«179092_j17343077941754_2_alg».proof.Proof.Gen.Kernel
import proofs.«179092_j17343077941754_2_alg».proof.Proof.Gen.Kernel.Skeleton
import proofs.«179092_j17343077941754_2_alg».proof.Proof.Gen.Kernel.Launch
import proofs.«179092_j17343077941754_2_alg».proof.Proof.Gen.Kernel.Points
import proofs.«179092_j17343077941754_2_alg».proof.Proof.Gen.Kernel.Frame
import proofs.«179092_j17343077941754_2_alg».proof.Proof.Gen.KernelIdeal
import proofs.«179092_j17343077941754_2_alg».proof.Proof.Gen.KernelIdeal.Skeleton
import proofs.«179092_j17343077941754_2_alg».proof.Proof.Gen.KernelIdeal.Launch
import proofs.«179092_j17343077941754_2_alg».proof.Proof.Gen.KernelIdeal.Points
import proofs.«179092_j17343077941754_2_alg».proof.Proof.Gen.KernelIdeal.Frame
import proofs.«179092_j17343077941754_2_alg».proof.Proof.Gen.ReferenceIdeal
import proofs.«179092_j17343077941754_2_alg».proof.Proof.Gen.Pre_finite_inputs
import Idealize.ShloMosaic.Adequacy
import Idealize.ShloMosaic.Init
import proofs.«179092_j17343077941754_2_alg».proof.Proof.RefRun
import proofs.«179092_j17343077941754_2_alg».proof.Proof.Bridge

noncomputable section

namespace Cert.Proof

open Idealize.ShloMosaic Idealize.ShloMosaic.TcCoe Idealize.SL.Sem

/-- The reference's result is the last stage of its three per-bin sums. -/
theorem ref_result (m' : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v38 (F := Ideal) m' c
      = Cert.Hist.tail
          (Cert.Hist.refCnt (m' ((c.tc : Thread Cert.ReferenceIdeal.nD Cert.ReferenceIdeal.τ).loc Cert.ReferenceIdeal.main_arg0)))
          (Cert.Hist.refConf (m' ((c.tc : Thread Cert.ReferenceIdeal.nD Cert.ReferenceIdeal.τ).loc Cert.ReferenceIdeal.main_arg0)))
          (Cert.Hist.refLab (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))) := by
  unfold Cert.ReferenceIdeal.ValueP.res_main_v38 Cert.Hist.tail Cert.Hist.refCnt Cert.Hist.refConf Cert.Hist.refLab
    Cert.Hist.refIdx Cert.Hist.refW Cert.Hist.zeros10
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- At the ideal values the kernel's program and the reference end with the same result: the last stage of the three
    per-bin sums of arguments that agree. -/
theorem algebraic : Cert.algebraic_KernelIdeal_ReferenceIdeal := by
  intro m ρ m' ρ' _ hagree
  refine ⟨fun c => Cert.Hist.tail
      (Cert.Hist.refCnt (m ((c.tc : Thread Cert.KernelIdeal.nD Cert.KernelIdeal.τ).loc Cert.KernelIdeal.main_arg0)))
      (Cert.Hist.refConf (m ((c.tc : Thread Cert.KernelIdeal.nD Cert.KernelIdeal.τ).loc Cert.KernelIdeal.main_arg0)))
      (Cert.Hist.refLab (m ((c.tc : Thread Cert.KernelIdeal.nD Cert.KernelIdeal.τ).loc Cert.KernelIdeal.main_arg0))
        (m ((c.tc : Thread Cert.KernelIdeal.nD Cert.KernelIdeal.τ).loc Cert.KernelIdeal.main_arg1))), ?_, ?_⟩
  · refine (θ_run Cert.KernelIdeal.defs _ _).mono (fun r h c => ?_) (Cert.KernelIdeal.Gen.run_main (F := Ideal) m ρ)
    refine ⟨((h c).2 Cert.KernelIdeal.main_v22 (Pipeline.mem_restRefs_of Cert.KernelIdeal.main_v22 (by decide) (by decide))).trans
        (Cert.Hist.kernel_result m c), ?_, ?_⟩
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun r h c => ⟨?_, (h c).2⟩)
      (Cert.ReferenceIdeal.ValueP.run (F := Ideal) m' ρ')
    rw [(h c).1, ref_result, (hagree c).1, (hagree c).2]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
